-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S84x128 : Shape := ⟨2, ![84, 128]⟩
abbrev S84 : Shape := ⟨1, ![84]⟩
abbrev S42x84 : Shape := ⟨2, ![42, 84]⟩
abbrev S42 : Shape := ⟨1, ![42]⟩
abbrev S32x42 : Shape := ⟨2, ![32, 42]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S1x4 : Shape := ⟨2, ![1, 4]⟩
abbrev S1 : Shape := ⟨1, ![1]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S84x128 : S_.BroadcastsInDim S84x128 (![] : Fin 0 → Fin S84x128.rank)
  reducesTo_S84x128_S_d0_1 : S84x128.ReducesTo [0, 1] S_
  bcast_S_S84 : S_.BroadcastsInDim S84 (![] : Fin 0 → Fin S84.rank)
  reducesTo_S84_S_d0 : S84.ReducesTo [0] S_
  bcast_S_S42x84 : S_.BroadcastsInDim S42x84 (![] : Fin 0 → Fin S42x84.rank)
  reducesTo_S42x84_S_d0_1 : S42x84.ReducesTo [0, 1] S_
  bcast_S_S42 : S_.BroadcastsInDim S42 (![] : Fin 0 → Fin S42.rank)
  reducesTo_S42_S_d0 : S42.ReducesTo [0] S_
  bcast_S_S32x42 : S_.BroadcastsInDim S32x42 (![] : Fin 0 → Fin S32x42.rank)
  reducesTo_S32x42_S_d0_1 : S32x42.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S4x8 .f32) (main_arg12 : FVec F S4 .f32) (main_arg13 : FVec F S1x4 .f32) (main_arg14 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S4x8 .f32 := Host.absf main_arg11
  let main_cst_20 : FVec F S_ .f32 := constant S_ .f32 0x7F800000#32
  let main_v55 : FVec F S4x8 .f32 := broadcastInDim S4x8 ![] bcast_S_S4x8 main_cst_20
  let main_v56 : IVec S4x8 1 := cmpf .olt main_v54 main_v55
  let main_c_21 : IVec S_ 1 := constantI S_ 1 1#1
  let main_v57 : IVec S_ 1 := (fun x v => Host.reduce IntOp.andi x v reducesTo_S4x8_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S1x4 .f32 := Host.absf main_arg13
  let main_cst_24 : FVec F S_ .f32 := constant S_ .f32 0x7F800000#32
  let main_v65 : FVec F S1x4 .f32 := broadcastInDim S1x4 ![] bcast_S_S1x4 main_cst_24
  let main_v66 : IVec S1x4 1 := cmpf .olt main_v64 main_v65
  let main_c_25 : IVec S_ 1 := constantI S_ 1 1#1
  let main_v67 : IVec S_ 1 := (fun x v => Host.reduce IntOp.andi x v reducesTo_S1x4_S_d0_1 h_S_) main_v66 main_c_25
  fn_part4 (F := F) main_arg14 main_v63 main_v67

def fn_part2 {F : FTy → Type} [FloatOps F] (main_arg7 : FVec F S16x32 .f32) (main_arg8 : FVec F S16 .f32) (main_arg9 : FVec F S8x16 .f32) (main_arg10 : FVec F S8 .f32) (main_arg11 : FVec F S4x8 .f32) (main_arg12 : FVec F S4 .f32) (main_arg13 : FVec F S1x4 .f32) (main_arg14 : FVec F S1 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S8x16 .f32 := Host.absf main_arg9
  let main_cst_16 : FVec F S_ .f32 := constant S_ .f32 0x7F800000#32
  let main_v45 : FVec F S8x16 .f32 := broadcastInDim S8x16 ![] bcast_S_S8x16 main_cst_16
  let main_v46 : IVec S8x16 1 := cmpf .olt main_v44 main_v45
  let main_c_17 : IVec S_ 1 := constantI S_ 1 1#1
  let main_v47 : IVec S_ 1 := (fun x v => Host.reduce IntOp.andi x v reducesTo_S8x16_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_v48 main_v49 main_v50

def fn_part1 {F : FTy → Type} [FloatOps F] (main_arg4 : FVec F S42 .f32) (main_arg5 : FVec F S32x42 .f32) (main_arg6 : FVec F S32 .f32) (main_arg7 : FVec F S16x32 .f32) (main_arg8 : FVec F S16 .f32) (main_arg9 : FVec F S8x16 .f32) (main_arg10 : FVec F S8 .f32) (main_arg11 : FVec F S4x8 .f32) (main_arg12 : FVec F S4 .f32) (main_arg13 : FVec F S1x4 .f32) (main_arg14 : FVec F S1 .f32) (main_v13 : IVec S_ 1) (main_v16 : IVec S42x84 1) : IVec S_ 1 :=
  let main_c_5 : IVec S_ 1 := constantI S_ 1 1#1
  let main_v17 : IVec S_ 1 := (fun x v => Host.reduce IntOp.andi x v reducesTo_S42x84_S_d0_1 h_S_) main_v16 main_c_5
  let main_v18 : IVec S_ 1 := andi main_v13 main_v17
  let main_v19 : FVec F S42 .f32 := Host.absf main_arg4
  let main_cst_6 : FVec F S_ .f32 := constant S_ .f32 0x7F800000#32
  let main_v20 : FVec F S42 .f32 := broadcastInDim S42 ![] bcast_S_S42 main_cst_6
  let main_v21 : IVec S42 1 := cmpf .olt main_v19 main_v20
  let main_c_7 : IVec S_ 1 := constantI S_ 1 1#1
  let main_v22 : IVec S_ 1 := (fun x v => Host.reduce IntOp.andi x v reducesTo_S42_S_d0 h_S_) main_v21 main_c_7
  let main_v23 : IVec S_ 1 := andi main_v18 main_v22
  let main_v24 : FVec F S32x42 .f32 := Host.absf main_arg5
  let main_cst_8 : FVec F S_ .f32 := constant S_ .f32 0x7F800000#32
  let main_v25 : FVec F S32x42 .f32 := broadcastInDim S32x42 ![] bcast_S_S32x42 main_cst_8
  let main_v26 : IVec S32x42 1 := cmpf .olt main_v24 main_v25
  let main_c_9 : IVec S_ 1 := constantI S_ 1 1#1
  let main_v27 : IVec S_ 1 := (fun x v => Host.reduce IntOp.andi x v reducesTo_S32x42_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S524288x128 .f32) (main_arg1 : FVec F S84x128 .f32) (main_arg2 : FVec F S84 .f32) (main_arg3 : FVec F S42x84 .f32) (main_arg4 : FVec F S42 .f32) (main_arg5 : FVec F S32x42 .f32) (main_arg6 : FVec F S32 .f32) (main_arg7 : FVec F S16x32 .f32) (main_arg8 : FVec F S16 .f32) (main_arg9 : FVec F S8x16 .f32) (main_arg10 : FVec F S8 .f32) (main_arg11 : FVec F S4x8 .f32) (main_arg12 : FVec F S4 .f32) (main_arg13 : FVec F S1x4 .f32) (main_arg14 : FVec F S1 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S84x128 .f32 := Host.absf main_arg1
  let main_cst_0 : FVec F S_ .f32 := constant S_ .f32 0x7F800000#32
  let main_v5 : FVec F S84x128 .f32 := broadcastInDim S84x128 ![] bcast_S_S84x128 main_cst_0
  let main_v6 : IVec S84x128 1 := cmpf .olt main_v4 main_v5
  let main_c_1 : IVec S_ 1 := constantI S_ 1 1#1
  let main_v7 : IVec S_ 1 := (fun x v => Host.reduce IntOp.andi x v reducesTo_S84x128_S_d0_1 h_S_) main_v6 main_c_1
  let main_v8 : IVec S_ 1 := andi main_v3 main_v7
  let main_v9 : FVec F S84 .f32 := Host.absf main_arg2
  let main_cst_2 : FVec F S_ .f32 := constant S_ .f32 0x7F800000#32
  let main_v10 : FVec F S84 .f32 := broadcastInDim S84 ![] bcast_S_S84 main_cst_2
  let main_v11 : IVec S84 1 := cmpf .olt main_v9 main_v10
  let main_c_3 : IVec S_ 1 := constantI S_ 1 1#1
  let main_v12 : IVec S_ 1 := (fun x v => Host.reduce IntOp.andi x v reducesTo_S84_S_d0 h_S_) main_v11 main_c_3
  let main_v13 : IVec S_ 1 := andi main_v8 main_v12
  let main_v14 : FVec F S42x84 .f32 := Host.absf main_arg3
  let main_cst_4 : FVec F S_ .f32 := constant S_ .f32 0x7F800000#32
  let main_v15 : FVec F S42x84 .f32 := broadcastInDim S42x84 ![] bcast_S_S42x84 main_cst_4
  let main_v16 : IVec S42x84 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S524288x128 : Shape := ⟨2, ![524288, 128]⟩
abbrev S84x128 : Shape := ⟨2, ![84, 128]⟩
abbrev S84 : Shape := ⟨1, ![84]⟩
abbrev S42x84 : Shape := ⟨2, ![42, 84]⟩
abbrev S42 : Shape := ⟨1, ![42]⟩
abbrev S32x42 : Shape := ⟨2, ![32, 42]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S1x4 : Shape := ⟨2, ![1, 4]⟩
abbrev S1 : Shape := ⟨1, ![1]⟩
abbrev S128x84 : Shape := ⟨2, ![128, 84]⟩
abbrev S_ : Shape := ⟨0, ![]⟩
abbrev S256x168 : Shape := ⟨2, ![256, 168]⟩
abbrev S2 : Shape := ⟨1, ![2]⟩
abbrev S168 : Shape := ⟨1, ![168]⟩
abbrev S1x168 : Shape := ⟨2, ![1, 168]⟩
abbrev S84x42 : Shape := ⟨2, ![84, 42]⟩
abbrev S168x84 : Shape := ⟨2, ![168, 84]⟩
abbrev S1x84 : Shape := ⟨2, ![1, 84]⟩
abbrev S42x32 : Shape := ⟨2, ![42, 32]⟩
abbrev S84x64 : Shape := ⟨2, ![84, 64]⟩
abbrev S64 : Shape := ⟨1, ![64]⟩
abbrev S1x64 : Shape := ⟨2, ![1, 64]⟩
abbrev S32x16 : Shape := ⟨2, ![32, 16]⟩
abbrev S64x32 : Shape := ⟨2, ![64, 32]⟩
abbrev S1x32 : Shape := ⟨2, ![1, 32]⟩
abbrev S16x8 : Shape := ⟨2, ![16, 8]⟩
abbrev S1x16 : Shape := ⟨2, ![1, 16]⟩
abbrev S8x4 : Shape := ⟨2, ![8, 4]⟩
abbrev S1x8 : Shape := ⟨2, ![1, 8]⟩
abbrev S4x1 : Shape := ⟨2, ![4, 1]⟩
abbrev S8x2 : Shape := ⟨2, ![8, 2]⟩
abbrev S1x2 : Shape := ⟨2, ![1, 2]⟩
abbrev S524288x1 : Shape := ⟨2, ![524288, 1]⟩
abbrev S8192x128 : Shape := ⟨2, ![8192, 128]⟩
abbrev S8192x1 : Shape := ⟨2, ![8192, 1]⟩
abbrev S4096x128 : Shape := ⟨2, ![4096, 128]⟩
abbrev S4096x256 : Shape := ⟨2, ![4096, 256]⟩
abbrev S4096x168 : Shape := ⟨2, ![4096, 168]⟩
abbrev S4096x84 : Shape := ⟨2, ![4096, 84]⟩
abbrev S4096x64 : Shape := ⟨2, ![4096, 64]⟩
abbrev S4096x32 : Shape := ⟨2, ![4096, 32]⟩
abbrev S4096x16 : Shape := ⟨2, ![4096, 16]⟩
abbrev S4096x8 : Shape := ⟨2, ![4096, 8]⟩
abbrev S4096x2 : Shape := ⟨2, ![4096, 2]⟩
abbrev S4096x1 : Shape := ⟨2, ![4096, 1]⟩

abbrev nBuf : Space → Nat
  | .hbm => 135
  | .vmem => 18
  | .smem => 0
  | _ => 0

abbrev hbmTy0_0 (i : Nat) : BufTy := match i % 128 with
  | 0 => ⟨S524288x128, .f32⟩
  | 1 => ⟨S84x128, .f32⟩
  | 2 => ⟨S84, .f32⟩
  | 3 => ⟨S42x84, .f32⟩
  | 4 => ⟨S42, .f32⟩
  | 5 => ⟨S32x42, .f32⟩
  | 6 => ⟨S32, .f32⟩
  | 7 => ⟨S16x32, .f32⟩
  | 8 => ⟨S16, .f32⟩
  | 9 => ⟨S8x16, .f32⟩
  | 10 => ⟨S8, .f32⟩
  | 11 => ⟨S4x8, .f32⟩
  | 12 => ⟨S4, .f32⟩
  | 13 => ⟨S1x4, .f32⟩
  | 14 => ⟨S1, .f32⟩
  | 15 => ⟨S128x84, .f32⟩
  | 16 => ⟨S_, .f32⟩
  | 17 => ⟨S256x168, .f32⟩
  | 18 => ⟨S_, .i32⟩
  | 19 => ⟨S1, .i32⟩
  | 20 => ⟨S_, .i32⟩
  | 21 => ⟨S1, .i32⟩
  | 22 => ⟨S2, .i32⟩
  | 23 => ⟨S256x168, .f32⟩
  | 24 => ⟨S_, .i32⟩
  | 25 => ⟨S1, .i32⟩
  | 26 => ⟨S_, .i32⟩
  | 27 => ⟨S1, .i32⟩
  | 28 => ⟨S2, .i32⟩
  | 29 => ⟨S256x168, .f32⟩
  | 30 => ⟨S168, .f32⟩
  | 31 => ⟨S1x168, .f32⟩
  | 32 => ⟨S84x42, .f32⟩
  | 33 => ⟨S_, .f32⟩
  | 34 => ⟨S168x84, .f32⟩
  | 35 => ⟨S_, .i32⟩
  | 36 => ⟨S1, .i32⟩
  | 37 => ⟨S_, .i32⟩
  | 38 => ⟨S1, .i32⟩
  | 39 => ⟨S2, .i32⟩
  | 40 => ⟨S168x84, .f32⟩
  | 41 => ⟨S_, .i32⟩
  | 42 => ⟨S1, .i32⟩
  | 43 => ⟨S_, .i32⟩
  | 44 => ⟨S1, .i32⟩
  | 45 => ⟨S2, .i32⟩
  | 46 => ⟨S168x84, .f32⟩
  | 47 => ⟨S84, .f32⟩
  | 48 => ⟨S1x84, .f32⟩
  | 49 => ⟨S42x32, .f32⟩
  | 50 => ⟨S_, .f32⟩
  | 51 => ⟨S84x64, .f32⟩
  | 52 => ⟨S_, .i32⟩
  | 53 => ⟨S1, .i32⟩
  | 54 => ⟨S_, .i32⟩
  | 55 => ⟨S1, .i32⟩
  | 56 => ⟨S2, .i32⟩
  | 57 => ⟨S84x64, .f32⟩
  | 58 => ⟨S_, .i32⟩
  | 59 => ⟨S1, .i32⟩
  | 60 => ⟨S_, .i32⟩
  | 61 => ⟨S1, .i32⟩
  | 62 => ⟨S2, .i32⟩
  | 63 => ⟨S84x64, .f32⟩
  | 64 => ⟨S64, .f32⟩
  | 65 => ⟨S1x64, .f32⟩
  | 66 => ⟨S32x16, .f32⟩
  | 67 => ⟨S_, .f32⟩
  | 68 => ⟨S64x32, .f32⟩
  | 69 => ⟨S_, .i32⟩
  | 70 => ⟨S1, .i32⟩
  | 71 => ⟨S_, .i32⟩
  | 72 => ⟨S1, .i32⟩
  | 73 => ⟨S2, .i32⟩
  | 74 => ⟨S64x32, .f32⟩
  | 75 => ⟨S_, .i32⟩
  | 76 => ⟨S1, .i32⟩
  | 77 => ⟨S_, .i32⟩
  | 78 => ⟨S1, .i32⟩
  | 79 => ⟨S2, .i32⟩
  | 80 => ⟨S64x32, .f32⟩
  | 81 => ⟨S32, .f32⟩
  | 82 => ⟨S1x32, .f32⟩
  | 83 => ⟨S16x8, .f32⟩
  | 84 => ⟨S_, .f32⟩
  | 85 => ⟨S32x16, .f32⟩
  | 86 => ⟨S_, .i32⟩
  | 87 => ⟨S1, .i32⟩
  | 88 => ⟨S_, .i32⟩
  | 89 => ⟨S1, .i32⟩
  | 90 => ⟨S2, .i32⟩
  | 91 => ⟨S32x16, .f32⟩
  | 92 => ⟨S_, .i32⟩
  | 93 => ⟨S1, .i32⟩
  | 94 => ⟨S_, .i32⟩
  | 95 => ⟨S1, .i32⟩
  | 96 => ⟨S2, .i32⟩
  | 97 => ⟨S32x16, .f32⟩
  | 98 => ⟨S16, .f32⟩
  | 99 => ⟨S1x16, .f32⟩
  | 100 => ⟨S8x4, .f32⟩
  | 101 => ⟨S_, .f32⟩
  | 102 => ⟨S16x8, .f32⟩
  | 103 => ⟨S_, .i32⟩
  | 104 => ⟨S1, .i32⟩
  | 105 => ⟨S_, .i32⟩
  | 106 => ⟨S1, .i32⟩
  | 107 => ⟨S2, .i32⟩
  | 108 => ⟨S16x8, .f32⟩
  | 109 => ⟨S_, .i32⟩
  | 110 => ⟨S1, .i32⟩
  | 111 => ⟨S_, .i32⟩
  | 112 => ⟨S1, .i32⟩
  | 113 => ⟨S2, .i32⟩
  | 114 => ⟨S16x8, .f32⟩
  | 115 => ⟨S8, .f32⟩
  | 116 => ⟨S1x8, .f32⟩
  | 117 => ⟨S4x1, .f32⟩
  | 118 => ⟨S_, .f32⟩
  | 119 => ⟨S8x2, .f32⟩
  | 120 => ⟨S_, .i32⟩
  | 121 => ⟨S1, .i32⟩
  | 122 => ⟨S_, .i32⟩
  | 123 => ⟨S1, .i32⟩
  | 124 => ⟨S2, .i32⟩
  | 125 => ⟨S8x2, .f32⟩
  | 126 => ⟨S_, .i32⟩
  | 127 => ⟨S1, .i32⟩
  | _ => ⟨S524288x128, .f32⟩

abbrev hbmTy0_1 (i : Nat) : BufTy := match i % 128 with
  | 0 => ⟨S_, .i32⟩
  | 1 => ⟨S1, .i32⟩
  | 2 => ⟨S2, .i32⟩
  | 3 => ⟨S8x2, .f32⟩
  | 4 => ⟨S2, .f32⟩
  | 5 => ⟨S1x2, .f32⟩
  | 6 => ⟨S524288x1, .f32⟩
  | _ => ⟨S524288x128, .f32⟩

abbrev hbmTy (i : Nat) : BufTy := match i / 128 with
  | 0 => hbmTy0_0 i
  | 1 => hbmTy0_1 i
  | _ => ⟨S524288x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S256x168, .f32⟩
  | .local _ .vmem, ⟨3, _⟩ => ⟨S1x168, .f32⟩
  | .local _ .vmem, ⟨4, _⟩ => ⟨S168x84, .f32⟩
  | .local _ .vmem, ⟨5, _⟩ => ⟨S1x84, .f32⟩
  | .local _ .vmem, ⟨6, _⟩ => ⟨S84x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x16, .f32⟩
  | .local _ .vmem, ⟨11, _⟩ => ⟨S1x16, .f32⟩
  | .local _ .vmem, ⟨12, _⟩ => ⟨S16x8, .f32⟩
  | .local _ .vmem, ⟨13, _⟩ => ⟨S1x8, .f32⟩
  | .local _ .vmem, ⟨14, _⟩ => ⟨S8x2, .f32⟩
  | .local _ .vmem, ⟨15, _⟩ => ⟨S1x2, .f32⟩
  | .local _ .vmem, ⟨16, _⟩ => ⟨S8192x1, .f32⟩
  | .local _ .vmem, ⟨17, _⟩ => ⟨S8192x1, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_1 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_c_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_c_7 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_c_9 : Ref sig .tc := ⟨.hbm, 52, rfl⟩
abbrev main_v26 : Ref sig .tc := ⟨.hbm, 53, rfl⟩
abbrev main_c_10 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_11 : Ref sig .tc := ⟨.hbm, 58, rfl⟩
abbrev main_v30 : Ref sig .tc := ⟨.hbm, 59, rfl⟩
abbrev main_c_12 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_c_14 : Ref sig .tc := ⟨.hbm, 69, rfl⟩
abbrev main_v38 : Ref sig .tc := ⟨.hbm, 70, rfl⟩
abbrev main_c_15 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_16 : Ref sig .tc := ⟨.hbm, 75, rfl⟩
abbrev main_v42 : Ref sig .tc := ⟨.hbm, 76, rfl⟩
abbrev main_c_17 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_18 : Ref sig .tc := ⟨.hbm, 84, rfl⟩
abbrev main_v49 : Ref sig .tc := ⟨.hbm, 85, rfl⟩
abbrev main_c_19 : Ref sig .tc := ⟨.hbm, 86, rfl⟩
abbrev main_v50 : Ref sig .tc := ⟨.hbm, 87, rfl⟩
abbrev main_c_20 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_21 : Ref sig .tc := ⟨.hbm, 92, rfl⟩
abbrev main_v54 : Ref sig .tc := ⟨.hbm, 93, rfl⟩
abbrev main_c_22 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_23 : Ref sig .tc := ⟨.hbm, 101, rfl⟩
abbrev main_v61 : Ref sig .tc := ⟨.hbm, 102, rfl⟩
abbrev main_c_24 : Ref sig .tc := ⟨.hbm, 103, rfl⟩
abbrev main_v62 : Ref sig .tc := ⟨.hbm, 104, rfl⟩
abbrev main_c_25 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_26 : Ref sig .tc := ⟨.hbm, 109, rfl⟩
abbrev main_v66 : Ref sig .tc := ⟨.hbm, 110, rfl⟩
abbrev main_c_27 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_28 : Ref sig .tc := ⟨.hbm, 118, rfl⟩
abbrev main_v73 : Ref sig .tc := ⟨.hbm, 119, rfl⟩
abbrev main_c_29 : Ref sig .tc := ⟨.hbm, 120, rfl⟩
abbrev main_v74 : Ref sig .tc := ⟨.hbm, 121, rfl⟩
abbrev main_c_30 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_31 : Ref sig .tc := ⟨.hbm, 126, rfl⟩
abbrev main_v78 : Ref sig .tc := ⟨.hbm, 127, rfl⟩
abbrev main_c_32 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S168x84 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x84 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S84x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8192x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S84x128_S128x84_1_0 : S84x128.Transposes [1, 0] S128x84
  bcast_S_S256x168 : S_.BroadcastsInDim S256x168 (![] : Fin 0 → Fin S256x168.rank)
  bcast_S_S1 : S_.BroadcastsInDim S1 (![] : Fin 0 → Fin S1.rank)
  concatenates_S1_S1_S2_d0 : Shape.Concatenates [S1, S1] S2 0
  concatenates_S84_S84_S168_d0 : Shape.Concatenates [S84, S84] S168 0
  shapeCasts_S168_S1x168 : S168.ShapeCasts S1x168
  transposes_S42x84_S84x42_1_0 : S42x84.Transposes [1, 0] S84x42
  bcast_S_S168x84 : S_.BroadcastsInDim S168x84 (![] : Fin 0 → Fin S168x84.rank)
  concatenates_S42_S42_S84_d0 : Shape.Concatenates [S42, S42] S84 0
  shapeCasts_S84_S1x84 : S84.ShapeCasts S1x84
  transposes_S32x42_S42x32_1_0 : S32x42.Transposes [1, 0] S42x32
  bcast_S_S84x64 : S_.BroadcastsInDim S84x64 (![] : Fin 0 → Fin S84x64.rank)
  concatenates_S32_S32_S64_d0 : Shape.Concatenates [S32, S32] S64 0
  shapeCasts_S64_S1x64 : S64.ShapeCasts S1x64
  transposes_S16x32_S32x16_1_0 : S16x32.Transposes [1, 0] S32x16
  bcast_S_S64x32 : S_.BroadcastsInDim S64x32 (![] : Fin 0 → Fin S64x32.rank)
  concatenates_S16_S16_S32_d0 : Shape.Concatenates [S16, S16] S32 0
  shapeCasts_S32_S1x32 : S32.ShapeCasts S1x32
  transposes_S8x16_S16x8_1_0 : S8x16.Transposes [1, 0] S16x8
  bcast_S_S32x16 : S_.BroadcastsInDim S32x16 (![] : Fin 0 → Fin S32x16.rank)
  concatenates_S8_S8_S16_d0 : Shape.Concatenates [S8, S8] S16 0
  shapeCasts_S16_S1x16 : S16.ShapeCasts S1x16
  transposes_S4x8_S8x4_1_0 : S4x8.Transposes [1, 0] S8x4
  bcast_S_S16x8 : S_.BroadcastsInDim S16x8 (![] : Fin 0 → Fin S16x8.rank)
  concatenates_S4_S4_S8_d0 : Shape.Concatenates [S4, S4] S8 0
  shapeCasts_S8_S1x8 : S8.ShapeCasts S1x8
  transposes_S1x4_S4x1_1_0 : S1x4.Transposes [1, 0] S4x1
  bcast_S_S8x2 : S_.BroadcastsInDim S8x2 (![] : Fin 0 → Fin S8x2.rank)
  shapeCasts_S2_S1x2 : S2.ShapeCasts S1x2
  inb_S8192x128_S4096x128_0_0 : ∀ a, (![0, 0] : Fin 2 → Nat) a + S4096x128.size a ≤ S8192x128.size a
  h_S4096x128 : 0 < S4096x128.numel
  inb_S8192x128_S4096x128_4096_0 : ∀ a, (![4096, 0] : Fin 2 → Nat) a + S4096x128.size a ≤ S8192x128.size a
  concatenates_S4096x128_S4096x128_S4096x256_d1 : Shape.Concatenates [S4096x128, S4096x128] S4096x256 1
  inb_S256x168_S256x168_0_0 : ∀ a, (![0, 0] : Fin 2 → Nat) a + S256x168.size a ≤ S256x168.size a
  h_S256x168 : 0 < S256x168.numel
  shapeCasts_S256x168_S256x168 : S256x168.ShapeCasts S256x168
  inb_S1x168_S1x168_0_0 : ∀ a, (![0, 0] : Fin 2 → Nat) a + S1x168.size a ≤ S1x168.size a
  h_S1x168 : 0 < S1x168.numel
  shapeCasts_S1x168_S1x168 : S1x168.ShapeCasts S1x168
  broadcasts_S1x168_S4096x168 : S1x168.Broadcasts S4096x168
  inb_S168x84_S168x84_0_0 : ∀ a, (![0, 0] : Fin 2 → Nat) a + S168x84.size a ≤ S168x84.size a
  h_S168x84 : 0 < S168x84.numel
  shapeCasts_S168x84_S168x84 : S168x84.ShapeCasts S168x84
  inb_S1x84_S1x84_0_0 : ∀ a, (![0, 0] : Fin 2 → Nat) a + S1x84.size a ≤ S1x84.size a
  h_S1x84 : 0 < S1x84.numel
  shapeCasts_S1x84_S1x84 : S1x84.ShapeCasts S1x84
  broadcasts_S1x84_S4096x84 : S1x84.Broadcasts S4096x84
  inb_S84x64_S84x64_0_0 : ∀ a, (![0, 0] : Fin 2 → Nat) a + S84x64.size a ≤ S84x64.size a
  h_S84x64 : 0 < S84x64.numel
  shapeCasts_S84x64_S84x64 : S84x64.ShapeCasts S84x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4096x8 : S1x8.Broadcasts S4096x8
  inb_S8x2_S8x2_0_0 : ∀ a, (![0, 0] : Fin 2 → Nat) a + S8x2.size a ≤ S8x2.size a
  h_S8x2 : 0 < S8x2.numel
  shapeCasts_S8x2_S8x2 : S8x2.ShapeCasts S8x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  slices_S4096x2_o0_0_S4096x1 : S4096x2.Slices ![0, 0] S4096x1
  inb_S8192x1_S4096x1_0_0 : ∀ a, (![0, 0] : Fin 2 → Nat) a + S4096x1.size a ≤ S8192x1.size a
  h_S4096x1 : 0 < S4096x1.numel
  slices_S4096x2_o0_1_S4096x1 : S4096x2.Slices ![0, 1] S4096x1
  inb_S8192x1_S4096x1_4096_0 : ∀ a, (![4096, 0] : Fin 2 → Nat) a + S4096x1.size a ≤ S8192x1.size a
  scatter_S256x168_S2_S128x84_01_n_01_0_wf : ScatterDims.WF S256x168 S2 S128x84 [0, 1] [] [0, 1] 0
  scatter_S168x84_S2_S84x42_01_n_01_0_wf : ScatterDims.WF S168x84 S2 S84x42 [0, 1] [] [0, 1] 0
  scatter_S84x64_S2_S42x32_01_n_01_0_wf : ScatterDims.WF S84x64 S2 S42x32 [0, 1] [] [0, 1] 0
  scatter_S64x32_S2_S32x16_01_n_01_0_wf : ScatterDims.WF S64x32 S2 S32x16 [0, 1] [] [0, 1] 0
  scatter_S32x16_S2_S16x8_01_n_01_0_wf : ScatterDims.WF S32x16 S2 S16x8 [0, 1] [] [0, 1] 0
  scatter_S16x8_S2_S8x4_01_n_01_0_wf : ScatterDims.WF S16x8 S2 S8x4 [0, 1] [] [0, 1] 0
  scatter_S8x2_S2_S4x1_01_n_01_0_wf : ScatterDims.WF S8x2 S2 S4x1 [0, 1] [] [0, 1] 0
  dot_S4096x256_S256x168_S4096x168_1_0_0_1_n_n_wf : DotDims.WF S4096x256 S256x168 S4096x168 [1] [0] [0] [1] [] []
  dot_S4096x168_S168x84_S4096x84_1_0_0_1_n_n_wf : DotDims.WF S4096x168 S168x84 S4096x84 [1] [0] [0] [1] [] []
  dot_S4096x84_S84x64_S4096x64_1_0_0_1_n_n_wf : DotDims.WF S4096x84 S84x64 S4096x64 [1] [0] [0] [1] [] []
  dot_S4096x64_S64x32_S4096x32_1_0_0_1_n_n_wf : DotDims.WF S4096x64 S64x32 S4096x32 [1] [0] [0] [1] [] []
  dot_S4096x32_S32x16_S4096x16_1_0_0_1_n_n_wf : DotDims.WF S4096x32 S32x16 S4096x16 [1] [0] [0] [1] [] []
  dot_S4096x16_S16x8_S4096x8_1_0_0_1_n_n_wf : DotDims.WF S4096x16 S16x8 S4096x8 [1] [0] [0] [1] [] []
  dot_S4096x8_S8x2_S4096x2_1_0_0_1_n_n_wf : DotDims.WF S4096x8 S8x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x168.size a ≤ S256x168.size a
  hwx0_1 : ∀ i : grid0.Coords, EltTy.bits .f32 = 32 ∨ (Rect.block (s := S256x168) S256x168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x168.size a ≤ S1x168.size a
  hwx0_2 : ∀ i : grid0.Coords, EltTy.bits .f32 = 32 ∨ (Rect.block (s := S1x168) S1x168.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S168x84.size a ≤ S168x84.size a
  hwx0_3 : ∀ i : grid0.Coords, EltTy.bits .f32 = 32 ∨ (Rect.block (s := S168x84) S168x84.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x84.size a ≤ S1x84.size a
  hwx0_4 : ∀ i : grid0.Coords, EltTy.bits .f32 = 32 ∨ (Rect.block (s := S1x84) S1x84.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S84x64.size a ≤ S84x64.size a
  hwx0_5 : ∀ i : grid0.Coords, EltTy.bits .f32 = 32 ∨ (Rect.block (s := S84x64) S84x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x16.size a ≤ S32x16.size a
  hwx0_9 : ∀ i : grid0.Coords, EltTy.bits .f32 = 32 ∨ (Rect.block (s := S32x16) S32x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x8.size a ≤ S16x8.size a
  hwx0_11 : ∀ i : grid0.Coords, EltTy.bits .f32 = 32 ∨ (Rect.block (s := S16x8) S16x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x8.size a ≤ S1x8.size a
  hwx0_12 : ∀ i : grid0.Coords, EltTy.bits .f32 = 32 ∨ (Rect.block (s := S1x8) S1x8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x2.size a ≤ S8x2.size a
  hwx0_13 : ∀ i : grid0.Coords, EltTy.bits .f32 = 32 ∨ (Rect.block (s := S8x2) S8x2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2.size a ≤ S1x2.size a
  hwx0_14 : ∀ i : grid0.Coords, EltTy.bits .f32 = 32 ∨ (Rect.block (s := S1x2) S1x2.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8192x1.size a ≤ S524288x1.size a
  hwx0_15 : ∀ i : grid0.Coords, EltTy.bits .f32 = 32 ∨ (Rect.block (s := S524288x1) S8192x1.size (cc0_transform_15 i) (hinb0_15 i)).WholeWords (EltTy.packing .f32)

variable [Facts₀]

def scatter_S256x168_S2_S128x84_01_n_01_0 : ScatterDims S256x168 S2 S128x84 where
  updateWindowDims := [0, 1]
  insertedWindowDims := []
  scatterDimsToOperandDims := [0, 1]
  indexVectorDim := 0
  wf := scatter_S256x168_S2_S128x84_01_n_01_0_wf
def scatter_S168x84_S2_S84x42_01_n_01_0 : ScatterDims S168x84 S2 S84x42 where
  updateWindowDims := [0, 1]
  insertedWindowDims := []
  scatterDimsToOperandDims := [0, 1]
  indexVectorDim := 0
  wf := scatter_S168x84_S2_S84x42_01_n_01_0_wf
def scatter_S84x64_S2_S42x32_01_n_01_0 : ScatterDims S84x64 S2 S42x32 where
  updateWindowDims := [0, 1]
  insertedWindowDims := []
  scatterDimsToOperandDims := [0, 1]
  indexVectorDim := 0
  wf := scatter_S84x64_S2_S42x32_01_n_01_0_wf
def scatter_S64x32_S2_S32x16_01_n_01_0 : ScatterDims S64x32 S2 S32x16 where
  updateWindowDims := [0, 1]
  insertedWindowDims := []
  scatterDimsToOperandDims := [0, 1]
  indexVectorDim := 0
  wf := scatter_S64x32_S2_S32x16_01_n_01_0_wf
def scatter_S32x16_S2_S16x8_01_n_01_0 : ScatterDims S32x16 S2 S16x8 where
  updateWindowDims := [0, 1]
  insertedWindowDims := []
  scatterDimsToOperandDims := [0, 1]
  indexVectorDim := 0
  wf := scatter_S32x16_S2_S16x8_01_n_01_0_wf
def scatter_S16x8_S2_S8x4_01_n_01_0 : ScatterDims S16x8 S2 S8x4 where
  updateWindowDims := [0, 1]
  insertedWindowDims := []
  scatterDimsToOperandDims := [0, 1]
  indexVectorDim := 0
  wf := scatter_S16x8_S2_S8x4_01_n_01_0_wf
def scatter_S8x2_S2_S4x1_01_n_01_0 : ScatterDims S8x2 S2 S4x1 where
  updateWindowDims := [0, 1]
  insertedWindowDims := []
  scatterDimsToOperandDims := [0, 1]
  indexVectorDim := 0
  wf := scatter_S8x2_S2_S4x1_01_n_01_0_wf
def dot_S4096x256_S256x168_S4096x168_1_0_0_1_n_n : DotDims S4096x256 S256x168 S4096x168 where
  lhsContracting := [1]
  rhsContracting := [0]
  lhsNonContracting := [0]
  rhsNonContracting := [1]
  lhsBatch := []
  rhsBatch := []
  wf := dot_S4096x256_S256x168_S4096x168_1_0_0_1_n_n_wf
def dot_S4096x168_S168x84_S4096x84_1_0_0_1_n_n : DotDims S4096x168 S168x84 S4096x84 where
  lhsContracting := [1]
  rhsContracting := [0]
  lhsNonContracting := [0]
  rhsNonContracting := [1]
  lhsBatch := []
  rhsBatch := []
  wf := dot_S4096x168_S168x84_S4096x84_1_0_0_1_n_n_wf
def dot_S4096x84_S84x64_S4096x64_1_0_0_1_n_n : DotDims S4096x84 S84x64 S4096x64 where
  lhsContracting := [1]
  rhsContracting := [0]
  lhsNonContracting := [0]
  rhsNonContracting := [1]
  lhsBatch := []
  rhsBatch := []
  wf := dot_S4096x84_S84x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x16_S16x8_S4096x8_1_0_0_1_n_n : DotDims S4096x16 S16x8 S4096x8 where
  lhsContracting := [1]
  rhsContracting := [0]
  lhsNonContracting := [0]
  rhsNonContracting := [1]
  lhsBatch := []
  rhsBatch := []
  wf := dot_S4096x16_S16x8_S4096x8_1_0_0_1_n_n_wf
def dot_S4096x8_S8x2_S4096x2_1_0_0_1_n_n : DotDims S4096x8 S8x2 S4096x2 where
  lhsContracting := [1]
  rhsContracting := [0]
  lhsNonContracting := [0]
  rhsNonContracting := [1]
  lhsBatch := []
  rhsBatch := []
  wf := dot_S4096x8_S8x2_S4096x2_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S168x84.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x84.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S84x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v57) S32x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v59) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v69) S16x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v71) S1x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v81) S8x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v83) S1x2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v84) S8192x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S524288x128 : Shape := ⟨2, ![524288, 128]⟩
abbrev S84x128 : Shape := ⟨2, ![84, 128]⟩
abbrev S84 : Shape := ⟨1, ![84]⟩
abbrev S42x84 : Shape := ⟨2, ![42, 84]⟩
abbrev S42 : Shape := ⟨1, ![42]⟩
abbrev S32x42 : Shape := ⟨2, ![32, 42]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S1x4 : Shape := ⟨2, ![1, 4]⟩
abbrev S1 : Shape := ⟨1, ![1]⟩
abbrev S128x84 : Shape := ⟨2, ![128, 84]⟩
abbrev S524288x84 : Shape := ⟨2, ![524288, 84]⟩
abbrev S1x84 : Shape := ⟨2, ![1, 84]⟩
abbrev S_ : Shape := ⟨0, ![]⟩
abbrev S84x42 : Shape := ⟨2, ![84, 42]⟩
abbrev S524288x42 : Shape := ⟨2, ![524288, 42]⟩
abbrev S1x42 : Shape := ⟨2, ![1, 42]⟩
abbrev S42x32 : Shape := ⟨2, ![42, 32]⟩
abbrev S524288x32 : Shape := ⟨2, ![524288, 32]⟩
abbrev S1x32 : Shape := ⟨2, ![1, 32]⟩
abbrev S32x16 : Shape := ⟨2, ![32, 16]⟩
abbrev S524288x16 : Shape := ⟨2, ![524288, 16]⟩
abbrev S1x16 : Shape := ⟨2, ![1, 16]⟩
abbrev S16x8 : Shape := ⟨2, ![16, 8]⟩
abbrev S524288x8 : Shape := ⟨2, ![524288, 8]⟩
abbrev S1x8 : Shape := ⟨2, ![1, 8]⟩
abbrev S8x4 : Shape := ⟨2, ![8, 4]⟩
abbrev S524288x4 : Shape := ⟨2, ![524288, 4]⟩
abbrev S4x1 : Shape := ⟨2, ![4, 1]⟩
abbrev S524288x1 : Shape := ⟨2, ![524288, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S84x128, .f32⟩
  | .hbm, ⟨2, _⟩ => ⟨S84, .f32⟩
  | .hbm, ⟨3, _⟩ => ⟨S42x84, .f32⟩
  | .hbm, ⟨4, _⟩ => ⟨S42, .f32⟩
  | .hbm, ⟨5, _⟩ => ⟨S32x42, .f32⟩
  | .hbm, ⟨6, _⟩ => ⟨S32, .f32⟩
  | .hbm, ⟨7, _⟩ => ⟨S16x32, .f32⟩
  | .hbm, ⟨8, _⟩ => ⟨S16, .f32⟩
  | .hbm, ⟨9, _⟩ => ⟨S8x16, .f32⟩
  | .hbm, ⟨10, _⟩ => ⟨S8, .f32⟩
  | .hbm, ⟨11, _⟩ => ⟨S4x8, .f32⟩
  | .hbm, ⟨12, _⟩ => ⟨S4, .f32⟩
  | .hbm, ⟨13, _⟩ => ⟨S1x4, .f32⟩
  | .hbm, ⟨14, _⟩ => ⟨S1, .f32⟩
  | .hbm, ⟨15, _⟩ => ⟨S128x84, .f32⟩
  | .hbm, ⟨16, _⟩ => ⟨S524288x84, .f32⟩
  | .hbm, ⟨17, _⟩ => ⟨S1x84, .f32⟩
  | .hbm, ⟨18, _⟩ => ⟨S524288x84, .f32⟩
  | .hbm, ⟨19, _⟩ => ⟨S524288x84, .f32⟩
  | .hbm, ⟨20, _⟩ => ⟨S_, .f32⟩
  | .hbm, ⟨21, _⟩ => ⟨S524288x84, .f32⟩
  | .hbm, ⟨22, _⟩ => ⟨S524288x84, .f32⟩
  | .hbm, ⟨23, _⟩ => ⟨S84x42, .f32⟩
  | .hbm, ⟨24, _⟩ => ⟨S524288x42, .f32⟩
  | .hbm, ⟨25, _⟩ => ⟨S1x42, .f32⟩
  | .hbm, ⟨26, _⟩ => ⟨S524288x42, .f32⟩
  | .hbm, ⟨27, _⟩ => ⟨S524288x42, .f32⟩
  | .hbm, ⟨28, _⟩ => ⟨S_, .f32⟩
  | .hbm, ⟨29, _⟩ => ⟨S524288x42, .f32⟩
  | .hbm, ⟨30, _⟩ => ⟨S524288x42, .f32⟩
  | .hbm, ⟨31, _⟩ => ⟨S42x32, .f32⟩
  | .hbm, ⟨32, _⟩ => ⟨S524288x32, .f32⟩
  | .hbm, ⟨33, _⟩ => ⟨S1x32, .f32⟩
  | .hbm, ⟨34, _⟩ => ⟨S524288x32, .f32⟩
  | .hbm, ⟨35, _⟩ => ⟨S524288x32, .f32⟩
  | .hbm, ⟨36, _⟩ => ⟨S_, .f32⟩
  | .hbm, ⟨37, _⟩ => ⟨S524288x32, .f32⟩
  | .hbm, ⟨38, _⟩ => ⟨S524288x32, .f32⟩
  | .hbm, ⟨39, _⟩ => ⟨S32x16, .f32⟩
  | .hbm, ⟨40, _⟩ => ⟨S524288x16, .f32⟩
  | .hbm, ⟨41, _⟩ => ⟨S1x16, .f32⟩
  | .hbm, ⟨42, _⟩ => ⟨S524288x16, .f32⟩
  | .hbm, ⟨43, _⟩ => ⟨S524288x16, .f32⟩
  | .hbm, ⟨44, _⟩ => ⟨S_, .f32⟩
  | .hbm, ⟨45, _⟩ => ⟨S524288x16, .f32⟩
  | .hbm, ⟨46, _⟩ => ⟨S524288x16, .f32⟩
  | .hbm, ⟨47, _⟩ => ⟨S16x8, .f32⟩
  | .hbm, ⟨48, _⟩ => ⟨S524288x8, .f32⟩
  | .hbm, ⟨49, _⟩ => ⟨S1x8, .f32⟩
  | .hbm, ⟨50, _⟩ => ⟨S524288x8, .f32⟩
  | .hbm, ⟨51, _⟩ => ⟨S524288x8, .f32⟩
  | .hbm, ⟨52, _⟩ => ⟨S_, .f32⟩
  | .hbm, ⟨53, _⟩ => ⟨S524288x8, .f32⟩
  | .hbm, ⟨54, _⟩ => ⟨S524288x8, .f32⟩
  | .hbm, ⟨55, _⟩ => ⟨S8x4, .f32⟩
  | .hbm, ⟨56, _⟩ => ⟨S524288x4, .f32⟩
  | .hbm, ⟨57, _⟩ => ⟨S1x4, .f32⟩
  | .hbm, ⟨58, _⟩ => ⟨S524288x4, .f32⟩
  | .hbm, ⟨59, _⟩ => ⟨S524288x4, .f32⟩
  | .hbm, ⟨60, _⟩ => ⟨S_, .f32⟩
  | .hbm, ⟨61, _⟩ => ⟨S524288x4, .f32⟩
  | .hbm, ⟨62, _⟩ => ⟨S524288x4, .f32⟩
  | .hbm, ⟨63, _⟩ => ⟨S4x1, .f32⟩
  | .hbm, ⟨64, _⟩ => ⟨S524288x1, .f32⟩
  | .hbm, ⟨65, _⟩ => ⟨S1x1, .f32⟩
  | .hbm, ⟨66, _⟩ => ⟨S524288x1, .f32⟩
  | .hbm, ⟨67, _⟩ => ⟨S524288x1, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_cst : Ref sig .tc := ⟨.hbm, 44, rfl⟩
abbrev main_call3_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call4_cst : Ref sig .tc := ⟨.hbm, 52, rfl⟩
abbrev main_call4_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call5_cst : Ref sig .tc := ⟨.hbm, 60, rfl⟩
abbrev main_call5_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]

class Facts₀ : Prop where
  transposes_S84x128_S128x84_1_0 : S84x128.Transposes [1, 0] S128x84
  bcast_S84_S1x84_1 : S84.BroadcastsInDim S1x84 (![1] : Fin 1 → Fin S1x84.rank)
  bcast_S1x84_S524288x84_0_1 : S1x84.BroadcastsInDim S524288x84 (![0, 1] : Fin 2 → Fin S524288x84.rank)
  bcast_S_S524288x84 : S_.BroadcastsInDim S524288x84 (![] : Fin 0 → Fin S524288x84.rank)
  transposes_S42x84_S84x42_1_0 : S42x84.Transposes [1, 0] S84x42
  bcast_S42_S1x42_1 : S42.BroadcastsInDim S1x42 (![1] : Fin 1 → Fin S1x42.rank)
  bcast_S1x42_S524288x42_0_1 : S1x42.BroadcastsInDim S524288x42 (![0, 1] : Fin 2 → Fin S524288x42.rank)
  bcast_S_S524288x42 : S_.BroadcastsInDim S524288x42 (![] : Fin 0 → Fin S524288x42.rank)
  transposes_S32x42_S42x32_1_0 : S32x42.Transposes [1, 0] S42x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  transposes_S16x32_S32x16_1_0 : S16x32.Transposes [1, 0] S32x16
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S_S524288x16 : S_.BroadcastsInDim S524288x16 (![] : Fin 0 → Fin S524288x16.rank)
  transposes_S8x16_S16x8_1_0 : S8x16.Transposes [1, 0] S16x8
  bcast_S8_S1x8_1 : S8.BroadcastsInDim S1x8 (![1] : Fin 1 → Fin S1x8.rank)
  bcast_S1x8_S524288x8_0_1 : S1x8.BroadcastsInDim S524288x8 (![0, 1] : Fin 2 → Fin S524288x8.rank)
  bcast_S_S524288x8 : S_.BroadcastsInDim S524288x8 (![] : Fin 0 → Fin S524288x8.rank)
  transposes_S4x8_S8x4_1_0 : S4x8.Transposes [1, 0] S8x4
  bcast_S4_S1x4_1 : S4.BroadcastsInDim S1x4 (![1] : Fin 1 → Fin S1x4.rank)
  bcast_S1x4_S524288x4_0_1 : S1x4.BroadcastsInDim S524288x4 (![0, 1] : Fin 2 → Fin S524288x4.rank)
  bcast_S_S524288x4 : S_.BroadcastsInDim S524288x4 (![] : Fin 0 → Fin S524288x4.rank)
  transposes_S1x4_S4x1_1_0 : S1x4.Transposes [1, 0] S4x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  dot_S524288x128_S128x84_S524288x84_1_0_0_1_n_n_wf : DotDims.WF S524288x128 S128x84 S524288x84 [1] [0] [0] [1] [] []
  dot_S524288x84_S84x42_S524288x42_1_0_0_1_n_n_wf : DotDims.WF S524288x84 S84x42 S524288x42 [1] [0] [0] [1] [] []
  dot_S524288x42_S42x32_S524288x32_1_0_0_1_n_n_wf : DotDims.WF S524288x42 S42x32 S524288x32 [1] [0] [0] [1] [] []
  dot_S524288x32_S32x16_S524288x16_1_0_0_1_n_n_wf : DotDims.WF S524288x32 S32x16 S524288x16 [1] [0] [0] [1] [] []
  dot_S524288x16_S16x8_S524288x8_1_0_0_1_n_n_wf : DotDims.WF S524288x16 S16x8 S524288x8 [1] [0] [0] [1] [] []
  dot_S524288x8_S8x4_S524288x4_1_0_0_1_n_n_wf : DotDims.WF S524288x8 S8x4 S524288x4 [1] [0] [0] [1] [] []
  dot_S524288x4_S4x1_S524288x1_1_0_0_1_n_n_wf : DotDims.WF S524288x4 S4x1 S524288x1 [1] [0] [0] [1] [] []

variable [Facts₀]

def dot_S524288x128_S128x84_S524288x84_1_0_0_1_n_n : DotDims S524288x128 S128x84 S524288x84 where
  lhsContracting := [1]
  rhsContracting := [0]
  lhsNonContracting := [0]
  rhsNonContracting := [1]
  lhsBatch := []
  rhsBatch := []
  wf := dot_S524288x128_S128x84_S524288x84_1_0_0_1_n_n_wf
def dot_S524288x84_S84x42_S524288x42_1_0_0_1_n_n : DotDims S524288x84 S84x42 S524288x42 where
  lhsContracting := [1]
  rhsContracting := [0]
  lhsNonContracting := [0]
  rhsNonContracting := [1]
  lhsBatch := []
  rhsBatch := []
  wf := dot_S524288x84_S84x42_S524288x42_1_0_0_1_n_n_wf
def dot_S524288x42_S42x32_S524288x32_1_0_0_1_n_n : DotDims S524288x42 S42x32 S524288x32 where
  lhsContracting := [1]
  rhsContracting := [0]
  lhsNonContracting := [0]
  rhsNonContracting := [1]
  lhsBatch := []
  rhsBatch := []
  wf := dot_S524288x42_S42x32_S524288x32_1_0_0_1_n_n_wf
def dot_S524288x32_S32x16_S524288x16_1_0_0_1_n_n : DotDims S524288x32 S32x16 S524288x16 where
  lhsContracting := [1]
  rhsContracting := [0]
  lhsNonContracting := [0]
  rhsNonContracting := [1]
  lhsBatch := []
  rhsBatch := []
  wf := dot_S524288x32_S32x16_S524288x16_1_0_0_1_n_n_wf
def dot_S524288x16_S16x8_S524288x8_1_0_0_1_n_n : DotDims S524288x16 S16x8 S524288x8 where
  lhsContracting := [1]
  rhsContracting := [0]
  lhsNonContracting := [0]
  rhsNonContracting := [1]
  lhsBatch := []
  rhsBatch := []
  wf := dot_S524288x16_S16x8_S524288x8_1_0_0_1_n_n_wf
def dot_S524288x8_S8x4_S524288x4_1_0_0_1_n_n : DotDims S524288x8 S8x4 S524288x4 where
  lhsContracting := [1]
  rhsContracting := [0]
  lhsNonContracting := [0]
  rhsNonContracting := [1]
  lhsBatch := []
  rhsBatch := []
  wf := dot_S524288x8_S8x4_S524288x4_1_0_0_1_n_n_wf
def dot_S524288x4_S4x1_S524288x1_1_0_0_1_n_n : DotDims S524288x4 S4x1 S524288x1 where
  lhsContracting := [1]
  rhsContracting := [0]
  lhsNonContracting := [0]
  rhsNonContracting := [1]
  lhsBatch := []
  rhsBatch := []
  wf := dot_S524288x4_S4x1_S524288x1_1_0_0_1_n_n_wf

class Facts : Prop extends Facts₀ where

variable [Facts]
-- ==== Proof.KernelBlocks.lean ====
/-
  The blocks the kernel body reads at a grid point, as parts of the arrays the region finds.

  The grid has 64 points. At point `t` the input window stages rows `8192·t … 8192·t + 8191` of the input, all 128
  columns; the output window stages the same rows of the one-column result. Each of the fourteen parameter windows
  stages its whole array at every point. So what the body loads is: from the input block, rows `r` and `4096 + r` of
  the block, that is rows `8192·t + r` and `8192·t + 4096 + r` of the input; from a parameter window, the array itself.
-/
import proofs.«175643_j62766652064010_2_alg».proof.Proof.Gen.KernelIdeal.Value
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The zero offsets of a rectangle that starts at the array's corner, spelt as a constant function. -/
theorem hz : (![0, 0] : Fin 2 → Nat) = fun _ => 0 := funext fun a => by fin_cases a <;> rfl

/-- The input and output windows' block index at point `t` is `(t, 0)`. -/
theorem idx_io : ∀ t : Fin cfg0.N, win0_15.index t (0 : Fin 2) = t.val ∧ win0_15.index t (1 : Fin 2) = 0
    ∧ win0_0.index t (0 : Fin 2) = t.val ∧ win0_0.index t (1 : Fin 2) = 0 :=
  (by decide +kernel : ∀ t : Fin grid0.N, _)

theorem idx_param1 : ∀ t : Fin cfg0.N, win0_1.index t (0 : Fin 2) = 0 ∧ win0_1.index t (1 : Fin 2) = 0 :=
  (by decide +kernel : ∀ t : Fin grid0.N, _)
theorem idx_param2 : ∀ t : Fin cfg0.N, win0_2.index t (0 : Fin 2) = 0 ∧ win0_2.index t (1 : Fin 2) = 0 :=
  (by decide +kernel : ∀ t : Fin grid0.N, _)
theorem idx_param3 : ∀ t : Fin cfg0.N, win0_3.index t (0 : Fin 2) = 0 ∧ win0_3.index t (1 : Fin 2) = 0 :=
  (by decide +kernel : ∀ t : Fin grid0.N, _)
theorem idx_param4 : ∀ t : Fin cfg0.N, win0_4.index t (0 : Fin 2) = 0 ∧ win0_4.index t (1 : Fin 2) = 0 :=
  (by decide +kernel : ∀ t : Fin grid0.N, _)
theorem idx_param5 : ∀ t : Fin cfg0.N, win0_5.index t (0 : Fin 2) = 0 ∧ win0_5.index t (1 : Fin 2) = 0 :=
  (by decide +kernel : ∀ t : Fin grid0.N, _)
theorem idx_param6 : ∀ t : Fin cfg0.N, win0_6.index t (0 : Fin 2) = 0 ∧ win0_6.index t (1 : Fin 2) = 0 :=
  (by decide +kernel : ∀ t : Fin grid0.N, _)
theorem idx_param7 : ∀ t : Fin cfg0.N, win0_7.index t (0 : Fin 2) = 0 ∧ win0_7.index t (1 : Fin 2) = 0 :=
  (by decide +kernel : ∀ t : Fin grid0.N, _)
theorem idx_param8 : ∀ t : Fin cfg0.N, win0_8.index t (0 : Fin 2) = 0 ∧ win0_8.index t (1 : Fin 2) = 0 :=
  (by decide +kernel : ∀ t : Fin grid0.N, _)
theorem idx_param9 : ∀ t : Fin cfg0.N, win0_9.index t (0 : Fin 2) = 0 ∧ win0_9.index t (1 : Fin 2) = 0 :=
  (by decide +kernel : ∀ t : Fin grid0.N, _)
theorem idx_param10 : ∀ t : Fin cfg0.N, win0_10.index t (0 : Fin 2) = 0 ∧ win0_10.index t (1 : Fin 2) = 0 :=
  (by decide +kernel : ∀ t : Fin grid0.N, _)
theorem idx_param11 : ∀ t : Fin cfg0.N, win0_11.index t (0 : Fin 2) = 0 ∧ win0_11.index t (1 : Fin 2) = 0 :=
  (by decide +kernel : ∀ t : Fin grid0.N, _)
theorem idx_param12 : ∀ t : Fin cfg0.N, win0_12.index t (0 : Fin 2) = 0 ∧ win0_12.index t (1 : Fin 2) = 0 :=
  (by decide +kernel : ∀ t : Fin grid0.N, _)
theorem idx_param13 : ∀ t : Fin cfg0.N, win0_13.index t (0 : Fin 2) = 0 ∧ win0_13.index t (1 : Fin 2) = 0 :=
  (by decide +kernel : ∀ t : Fin grid0.N, _)
theorem idx_param14 : ∀ t : Fin cfg0.N, win0_14.index t (0 : Fin 2) = 0 ∧ win0_14.index t (1 : Fin 2) = 0 :=
  (by decide +kernel : ∀ t : Fin grid0.N, _)

/-- Window 1 stages its whole array at every point: what the body loads from it is the array. -/
theorem ld_win1 (c : Dev nD) (t : Fin cfg0.N) :
    View.ld (iblk m c 1 t) r0_2 = (V m c main_v9 : S256x168.Idx → EReal) := by
  rw [View.ld_unit_zero (S := S256x168) hz]
  obtain ⟨e0, e1⟩ := idx_param1 t
  funext i
  show V m c main_v9 (((cfg0.win 1).blk t).view.emb i) = V m c main_v9 i
  congr 1
  funext a; apply Fin.ext
  match a with
  | ⟨0, _⟩ => show win0_1.index t (0 : Fin 2) * 256 + 1 * (i 0).val = (i 0).val; omega
  | ⟨1, _⟩ => show win0_1.index t (1 : Fin 2) * 168 + 1 * (i 1).val = (i 1).val; omega

/-- Window 2 stages its whole array at every point: what the body loads from it is the array. -/
theorem ld_win2 (c : Dev nD) (t : Fin cfg0.N) :
    View.ld (iblk m c 2 t) r0_3 = (V m c main_v11 : S1x168.Idx → EReal) := by
  rw [View.ld_unit_zero (S := S1x168) hz]
  obtain ⟨e0, e1⟩ := idx_param2 t
  funext i
  show V m c main_v11 (((cfg0.win 2).blk t).view.emb i) = V m c main_v11 i
  congr 1
  funext a; apply Fin.ext
  match a with
  | ⟨0, _⟩ => show win0_2.index t (0 : Fin 2) * 1 + 1 * (i 0).val = (i 0).val; omega
  | ⟨1, _⟩ => show win0_2.index t (1 : Fin 2) * 168 + 1 * (i 1).val = (i 1).val; omega

/-- Window 3 stages its whole array at every point: what the body loads from it is the array. -/
theorem ld_win3 (c : Dev nD) (t : Fin cfg0.N) :
    View.ld (iblk m c 3 t) r0_4 = (V m c main_v21 : S168x84.Idx → EReal) := by
  rw [View.ld_unit_zero (S := S168x84) hz]
  obtain ⟨e0, e1⟩ := idx_param3 t
  funext i
  show V m c main_v21 (((cfg0.win 3).blk t).view.emb i) = V m c main_v21 i
  congr 1
  funext a; apply Fin.ext
  match a with
  | ⟨0, _⟩ => show win0_3.index t (0 : Fin 2) * 168 + 1 * (i 0).val = (i 0).val; omega
  | ⟨1, _⟩ => show win0_3.index t (1 : Fin 2) * 84 + 1 * (i 1).val = (i 1).val; omega

/-- Window 4 stages its whole array at every point: what the body loads from it is the array. -/
theorem ld_win4 (c : Dev nD) (t : Fin cfg0.N) :
    View.ld (iblk m c 4 t) r0_5 = (V m c main_v23 : S1x84.Idx → EReal) := by
  rw [View.ld_unit_zero (S := S1x84) hz]
  obtain ⟨e0, e1⟩ := idx_param4 t
  funext i
  show V m c main_v23 (((cfg0.win 4).blk t).view.emb i) = V m c main_v23 i
  congr 1
  funext a; apply Fin.ext
  match a with
  | ⟨0, _⟩ => show win0_4.index t (0 : Fin 2) * 1 + 1 * (i 0).val = (i 0).val; omega
  | ⟨1, _⟩ => show win0_4.index t (1 : Fin 2) * 84 + 1 * (i 1).val = (i 1).val; omega

/-- Window 5 stages its whole array at every point: what the body loads from it is the array. -/
theorem ld_win5 (c : Dev nD) (t : Fin cfg0.N) :
    View.ld (iblk m c 5 t) r0_6 = (V m c main_v33 : S84x64.Idx → EReal) := by
  rw [View.ld_unit_zero (S := S84x64) hz]
  obtain ⟨e0, e1⟩ := idx_param5 t
  funext i
  show V m c main_v33 (((cfg0.win 5).blk t).view.emb i) = V m c main_v33 i
  congr 1
  funext a; apply Fin.ext
  match a with
  | ⟨0, _⟩ => show win0_5.index t (0 : Fin 2) * 84 + 1 * (i 0).val = (i 0).val; omega
  | ⟨1, _⟩ => show win0_5.index t (1 : Fin 2) * 64 + 1 * (i 1).val = (i 1).val; omega

/-- Window 6 stages its whole array at every point: what the body loads from it is the array. -/
theorem ld_win6 (c : Dev nD) (t : Fin cfg0.N) :
    View.ld (iblk m c 6 t) r0_7 = (V m c main_v35 : S1x64.Idx → EReal) := by
  rw [View.ld_unit_zero (S := S1x64) hz]
  obtain ⟨e0, e1⟩ := idx_param6 t
  funext i
  show V m c main_v35 (((cfg0.win 6).blk t).view.emb i) = V m c main_v35 i
  congr 1
  funext a; apply Fin.ext
  match a with
  | ⟨0, _⟩ => show win0_6.index t (0 : Fin 2) * 1 + 1 * (i 0).val = (i 0).val; omega
  | ⟨1, _⟩ => show win0_6.index t (1 : Fin 2) * 64 + 1 * (i 1).val = (i 1).val; omega

/-- Window 7 stages its whole array at every point: what the body loads from it is the array. -/
theorem ld_win7 (c : Dev nD) (t : Fin cfg0.N) :
    View.ld (iblk m c 7 t) r0_8 = (V m c main_v45 : S64x32.Idx → EReal) := by
  rw [View.ld_unit_zero (S := S64x32) hz]
  obtain ⟨e0, e1⟩ := idx_param7 t
  funext i
  show V m c main_v45 (((cfg0.win 7).blk t).view.emb i) = V m c main_v45 i
  congr 1
  funext a; apply Fin.ext
  match a with
  | ⟨0, _⟩ => show win0_7.index t (0 : Fin 2) * 64 + 1 * (i 0).val = (i 0).val; omega
  | ⟨1, _⟩ => show win0_7.index t (1 : Fin 2) * 32 + 1 * (i 1).val = (i 1).val; omega

/-- Window 8 stages its whole array at every point: what the body loads from it is the array. -/
theorem ld_win8 (c : Dev nD) (t : Fin cfg0.N) :
    View.ld (iblk m c 8 t) r0_9 = (V m c main_v47 : S1x32.Idx → EReal) := by
  rw [View.ld_unit_zero (S := S1x32) hz]
  obtain ⟨e0, e1⟩ := idx_param8 t
  funext i
  show V m c main_v47 (((cfg0.win 8).blk t).view.emb i) = V m c main_v47 i
  congr 1
  funext a; apply Fin.ext
  match a with
  | ⟨0, _⟩ => show win0_8.index t (0 : Fin 2) * 1 + 1 * (i 0).val = (i 0).val; omega
  | ⟨1, _⟩ => show win0_8.index t (1 : Fin 2) * 32 + 1 * (i 1).val = (i 1).val; omega

/-- Window 9 stages its whole array at every point: what the body loads from it is the array. -/
theorem ld_win9 (c : Dev nD) (t : Fin cfg0.N) :
    View.ld (iblk m c 9 t) r0_10 = (V m c main_v57 : S32x16.Idx → EReal) := by
  rw [View.ld_unit_zero (S := S32x16) hz]
  obtain ⟨e0, e1⟩ := idx_param9 t
  funext i
  show V m c main_v57 (((cfg0.win 9).blk t).view.emb i) = V m c main_v57 i
  congr 1
  funext a; apply Fin.ext
  match a with
  | ⟨0, _⟩ => show win0_9.index t (0 : Fin 2) * 32 + 1 * (i 0).val = (i 0).val; omega
  | ⟨1, _⟩ => show win0_9.index t (1 : Fin 2) * 16 + 1 * (i 1).val = (i 1).val; omega

/-- Window 10 stages its whole array at every point: what the body loads from it is the array. -/
theorem ld_win10 (c : Dev nD) (t : Fin cfg0.N) :
    View.ld (iblk m c 10 t) r0_11 = (V m c main_v59 : S1x16.Idx → EReal) := by
  rw [View.ld_unit_zero (S := S1x16) hz]
  obtain ⟨e0, e1⟩ := idx_param10 t
  funext i
  show V m c main_v59 (((cfg0.win 10).blk t).view.emb i) = V m c main_v59 i
  congr 1
  funext a; apply Fin.ext
  match a with
  | ⟨0, _⟩ => show win0_10.index t (0 : Fin 2) * 1 + 1 * (i 0).val = (i 0).val; omega
  | ⟨1, _⟩ => show win0_10.index t (1 : Fin 2) * 16 + 1 * (i 1).val = (i 1).val; omega

/-- Window 11 stages its whole array at every point: what the body loads from it is the array. -/
theorem ld_win11 (c : Dev nD) (t : Fin cfg0.N) :
    View.ld (iblk m c 11 t) r0_12 = (V m c main_v69 : S16x8.Idx → EReal) := by
  rw [View.ld_unit_zero (S := S16x8) hz]
  obtain ⟨e0, e1⟩ := idx_param11 t
  funext i
  show V m c main_v69 (((cfg0.win 11).blk t).view.emb i) = V m c main_v69 i
  congr 1
  funext a; apply Fin.ext
  match a with
  | ⟨0, _⟩ => show win0_11.index t (0 : Fin 2) * 16 + 1 * (i 0).val = (i 0).val; omega
  | ⟨1, _⟩ => show win0_11.index t (1 : Fin 2) * 8 + 1 * (i 1).val = (i 1).val; omega

/-- Window 12 stages its whole array at every point: what the body loads from it is the array. -/
theorem ld_win12 (c : Dev nD) (t : Fin cfg0.N) :
    View.ld (iblk m c 12 t) r0_13 = (V m c main_v71 : S1x8.Idx → EReal) := by
  rw [View.ld_unit_zero (S := S1x8) hz]
  obtain ⟨e0, e1⟩ := idx_param12 t
  funext i
  show V m c main_v71 (((cfg0.win 12).blk t).view.emb i) = V m c main_v71 i
  congr 1
  funext a; apply Fin.ext
  match a with
  | ⟨0, _⟩ => show win0_12.index t (0 : Fin 2) * 1 + 1 * (i 0).val = (i 0).val; omega
  | ⟨1, _⟩ => show win0_12.index t (1 : Fin 2) * 8 + 1 * (i 1).val = (i 1).val; omega

/-- Window 13 stages its whole array at every point: what the body loads from it is the array. -/
theorem ld_win13 (c : Dev nD) (t : Fin cfg0.N) :
    View.ld (iblk m c 13 t) r0_14 = (V m c main_v81 : S8x2.Idx → EReal) := by
  rw [View.ld_unit_zero (S := S8x2) hz]
  obtain ⟨e0, e1⟩ := idx_param13 t
  funext i
  show V m c main_v81 (((cfg0.win 13).blk t).view.emb i) = V m c main_v81 i
  congr 1
  funext a; apply Fin.ext
  match a with
  | ⟨0, _⟩ => show win0_13.index t (0 : Fin 2) * 8 + 1 * (i 0).val = (i 0).val; omega
  | ⟨1, _⟩ => show win0_13.index t (1 : Fin 2) * 2 + 1 * (i 1).val = (i 1).val; omega

/-- Window 14 stages its whole array at every point: what the body loads from it is the array. -/
theorem ld_win14 (c : Dev nD) (t : Fin cfg0.N) :
    View.ld (iblk m c 14 t) r0_15 = (V m c main_v83 : S1x2.Idx → EReal) := by
  rw [View.ld_unit_zero (S := S1x2) hz]
  obtain ⟨e0, e1⟩ := idx_param14 t
  funext i
  show V m c main_v83 (((cfg0.win 14).blk t).view.emb i) = V m c main_v83 i
  congr 1
  funext a; apply Fin.ext
  match a with
  | ⟨0, _⟩ => show win0_14.index t (0 : Fin 2) * 1 + 1 * (i 0).val = (i 0).val; omega
  | ⟨1, _⟩ => show win0_14.index t (1 : Fin 2) * 2 + 1 * (i 1).val = (i 1).val; omega

/-- The first half tile: row `r` of what the body loads through the first rectangle is row `8192·t + r` of the input. -/
theorem ld_x0 (c : Dev nD) (t : Fin cfg0.N) (r : Fin 4096) (k : Fin 128) :
    View.ld (iblk m c 0 t) r0_0 (ix2 r k)
      = (m ((c : Thread nD τ).loc main_arg0) : S524288x128.Idx → EReal)
          (ix2 ⟨8192 * t.val + r.val, by have := t.isLt; have := r.isLt; have h64 : cfg0.N = 64 := N_0; omega⟩ k) := by
  obtain ⟨-, -, e0, e1⟩ := idx_io t
  rw [← V_main_arg0 m c]
  show V m c main_arg0 (((cfg0.win 0).blk t).view.emb (r0_0.emb (ix2 r k))) = _
  congr 1
  funext a; apply Fin.ext
  match a with
  | ⟨0, _⟩ => show win0_0.index t (0 : Fin 2) * 8192 + 1 * (0 + 1 * r.val) = 8192 * t.val + r.val; omega
  | ⟨1, _⟩ => show win0_0.index t (1 : Fin 2) * 128 + 1 * (0 + 1 * k.val) = k.val; omega

/-- The second half tile: row `r` of what the body loads through the second rectangle is row `8192·t + 4096 + r`. -/
theorem ld_x1 (c : Dev nD) (t : Fin cfg0.N) (r : Fin 4096) (k : Fin 128) :
    View.ld (iblk m c 0 t) r0_1 (ix2 r k)
      = (m ((c : Thread nD τ).loc main_arg0) : S524288x128.Idx → EReal)
          (ix2 ⟨8192 * t.val + 4096 + r.val, by have := t.isLt; have := r.isLt; have h64 : cfg0.N = 64 := N_0; omega⟩ k) := by
  obtain ⟨-, -, e0, e1⟩ := idx_io t
  rw [← V_main_arg0 m c]
  show V m c main_arg0 (((cfg0.win 0).blk t).view.emb (r0_1.emb (ix2 r k))) = _
  congr 1
  funext a; apply Fin.ext
  match a with
  | ⟨0, _⟩ => show win0_0.index t (0 : Fin 2) * 8192 + 1 * (4096 + 1 * r.val) = 8192 * t.val + 4096 + r.val; omega
  | ⟨1, _⟩ => show win0_0.index t (1 : Fin 2) * 128 + 1 * (0 + 1 * k.val) = k.val; omega

end Cert.KernelIdeal.Blocks

end
-- ==== Proof.Spec.lean ====
/-
  The network both programs compute, on the extended reals, and the algebra of running two rows side by side.

  A dense layer takes a row `a` of `d` activations to the row `j ↦ (∑ k, a k · W(j, k)) + b j` of `e` activations
  (weights stored `[out, in]`); `relu` clamps each activation at zero from below. The network is seven such layers,
  128 → 84 → 42 → 32 → 16 → 8 → 4 → 1, the first six followed by `relu`.

  Two rows `a0`, `a1` laid side by side form the row `pack a0 a1` of `d + d` activations. Against the block-diagonal
  matrix `[d + d, e + e]` whose two diagonal blocks are both the transposed weights and whose other entries are zero,
  the packed row's product is the two rows' products side by side: in column `j < e` the second half of the sum meets
  only zero entries, in column `j ≥ e` the first half does, and a product with zero is zero on the extended reals
  whatever the other factor is. So a layer applied to a packed row, with the bias repeated twice, is the layer applied
  to each row, packed; and likewise `relu`. No finiteness is used.
-/
import Idealize.ShloMosaic.PureOps.Ideal
import Idealize.ShloMosaic.Lib.ValueIdx

open scoped BigOperators

noncomputable section

namespace Cert.Mlp

open Idealize.ShloMosaic Idealize.ShloMosaic.ValueIdx

/-- One dense layer on one row: `j ↦ (∑ k, a k · W(j, k)) + b j`. -/
def lin {d e : Nat} (W : (⟨2, ![e, d]⟩ : Shape).Idx → EReal) (b : (⟨1, ![e]⟩ : Shape).Idx → EReal)
    (a : Fin d → EReal) : Fin e → EReal :=
  fun j => (∑ k : Fin d, a k * W (ix2 j k)) + b (ix1 j)

/-- Each activation clamped at zero from below. -/
def relu {e : Nat} (v : Fin e → EReal) : Fin e → EReal := fun j => max (v j) 0

/-- Two rows side by side. -/
def pack {d : Nat} (a0 a1 : Fin d → EReal) : Fin (d + d) → EReal :=
  fun k => if h : k.val < d then a0 ⟨k.val, h⟩ else a1 ⟨k.val - d, by have := k.isLt; omega⟩

/-- The block-diagonal matrix `[d + d, e + e]` with the transposed weights in both diagonal blocks and zero elsewhere. -/
def blockDiag {d e : Nat} (W : (⟨2, ![e, d]⟩ : Shape).Idx → EReal) : Fin (d + d) → Fin (e + e) → EReal :=
  fun k j =>
    if h : k.val < d ∧ j.val < e then W (ix2 ⟨j.val, h.2⟩ ⟨k.val, h.1⟩)
    else if h' : d ≤ k.val ∧ e ≤ j.val then
      W (ix2 ⟨j.val - e, by have := j.isLt; omega⟩ ⟨k.val - d, by have := k.isLt; omega⟩)
    else 0

theorem pack_castAdd {d : Nat} (a0 a1 : Fin d → EReal) (i : Fin d) : pack a0 a1 (Fin.castAdd d i) = a0 i := by
  unfold pack
  rw [dif_pos (show (Fin.castAdd d i).val < d from i.isLt)]
  rfl

theorem pack_natAdd {d : Nat} (a0 a1 : Fin d → EReal) (i : Fin d) : pack a0 a1 (Fin.natAdd d i) = a1 i := by
  unfold pack
  rw [dif_neg (show ¬ (Fin.natAdd d i).val < d by simp [Fin.natAdd])]
  congr 1
  exact Fin.ext (by simp [Fin.natAdd])

theorem pack_of_lt {d : Nat} (a0 a1 : Fin d → EReal) (k : Fin (d + d)) (h : k.val < d) :
    pack a0 a1 k = a0 ⟨k.val, h⟩ := by
  unfold pack; rw [dif_pos h]

theorem pack_of_ge {d : Nat} (a0 a1 : Fin d → EReal) (k : Fin (d + d)) (h : d ≤ k.val) :
    pack a0 a1 k = a1 ⟨k.val - d, by have := k.isLt; omega⟩ := by
  unfold pack; rw [dif_neg (by omega)]

/-- The packed row against the block-diagonal matrix: the two rows' products, side by side. -/
theorem sum_pack_blockDiag {d e : Nat} (W : (⟨2, ![e, d]⟩ : Shape).Idx → EReal) (a0 a1 : Fin d → EReal)
    (j : Fin (e + e)) :
    ∑ k : Fin (d + d), pack a0 a1 k * blockDiag W k j
      = pack (fun j => ∑ k : Fin d, a0 k * W (ix2 j k)) (fun j => ∑ k : Fin d, a1 k * W (ix2 j k)) j := by
  rw [Fin.sum_univ_add]
  simp only [pack_castAdd, pack_natAdd]
  by_cases hj : j.val < e
  · rw [pack_of_lt _ _ j hj]
    have h1 : ∀ i : Fin d, blockDiag W (Fin.castAdd d i) j = W (ix2 ⟨j.val, hj⟩ i) := by
      intro i
      unfold blockDiag
      rw [dif_pos ⟨(show (Fin.castAdd d i).val < d from i.isLt), hj⟩]
      rfl
    have h2 : ∀ i : Fin d, blockDiag W (Fin.natAdd d i) j = 0 := by
      intro i
      unfold blockDiag
      rw [dif_neg (by simp [Fin.natAdd]), dif_neg (by omega)]
    simp only [h1, h2, mul_zero, Finset.sum_const_zero, add_zero]
  · have hj' : e ≤ j.val := Nat.le_of_not_lt hj
    rw [pack_of_ge _ _ j hj']
    have h1 : ∀ i : Fin d, blockDiag W (Fin.castAdd d i) j = 0 := by
      intro i
      unfold blockDiag
      rw [dif_neg (by omega), dif_neg (by simp [Fin.castAdd])]
    have h2 : ∀ i : Fin d, blockDiag W (Fin.natAdd d i) j = W (ix2 ⟨j.val - e, by have := j.isLt; omega⟩ i) := by
      intro i
      unfold blockDiag
      rw [dif_neg (by omega), dif_pos ⟨by simp [Fin.natAdd], hj'⟩]
      congr 2
      exact Fin.ext (by simp [Fin.natAdd])
    simp only [h1, h2, mul_zero, Finset.sum_const_zero, zero_add]

/-- A layer on a packed row, the bias repeated, is the layer on each row, packed. -/
theorem packed_lin {d e : Nat} (W : (⟨2, ![e, d]⟩ : Shape).Idx → EReal) (b : (⟨1, ![e]⟩ : Shape).Idx → EReal)
    (a0 a1 : Fin d → EReal) (j : Fin (e + e)) :
    (∑ k : Fin (d + d), pack a0 a1 k * blockDiag W k j) + pack (fun j => b (ix1 j)) (fun j => b (ix1 j)) j
      = pack (lin W b a0) (lin W b a1) j := by
  rw [sum_pack_blockDiag]
  by_cases hj : j.val < e
  · rw [pack_of_lt _ _ j hj, pack_of_lt _ _ j hj, pack_of_lt _ _ j hj]; rfl
  · have hj' : e ≤ j.val := Nat.le_of_not_lt hj
    rw [pack_of_ge _ _ j hj', pack_of_ge _ _ j hj', pack_of_ge _ _ j hj']; rfl

/-- `relu` on a packed row is `relu` on each row, packed. -/
theorem packed_relu {e : Nat} (u0 u1 : Fin e → EReal) (j : Fin (e + e)) :
    max (pack u0 u1 j) 0 = pack (relu u0) (relu u1) j := by
  by_cases hj : j.val < e
  · rw [pack_of_lt _ _ j hj, pack_of_lt _ _ j hj]; rfl
  · have hj' : e ≤ j.val := Nat.le_of_not_lt hj
    rw [pack_of_ge _ _ j hj', pack_of_ge _ _ j hj']; rfl

/-- The seven layers on one row of 128 inputs. -/
def mlp (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![32, 42]⟩ : Shape).Idx → EReal) (b3 : (⟨1, ![32]⟩ : Shape).Idx → EReal)
    (W4 : (⟨2, ![16, 32]⟩ : Shape).Idx → EReal) (b4 : (⟨1, ![16]⟩ : Shape).Idx → EReal)
    (W5 : (⟨2, ![8, 16]⟩ : Shape).Idx → EReal) (b5 : (⟨1, ![8]⟩ : Shape).Idx → EReal)
    (W6 : (⟨2, ![4, 8]⟩ : Shape).Idx → EReal) (b6 : (⟨1, ![4]⟩ : Shape).Idx → EReal)
    (W7 : (⟨2, ![1, 4]⟩ : Shape).Idx → EReal) (b7 : (⟨1, ![1]⟩ : Shape).Idx → EReal)
    (a : Fin 128 → EReal) : Fin 1 → EReal :=
  lin W7 b7 (relu (lin W6 b6 (relu (lin W5 b5 (relu (lin W4 b4 (relu (lin W3 b3 (relu (lin W2 b2
    (relu (lin W1 b1 a))))))))))))

/-- The result array: row `p` of the input through the seven layers. -/
def G (x : (⟨2, ![524288, 128]⟩ : Shape).Idx → EReal)
    (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![32, 42]⟩ : Shape).Idx → EReal) (b3 : (⟨1, ![32]⟩ : Shape).Idx → EReal)
    (W4 : (⟨2, ![16, 32]⟩ : Shape).Idx → EReal) (b4 : (⟨1, ![16]⟩ : Shape).Idx → EReal)
    (W5 : (⟨2, ![8, 16]⟩ : Shape).Idx → EReal) (b5 : (⟨1, ![8]⟩ : Shape).Idx → EReal)
    (W6 : (⟨2, ![4, 8]⟩ : Shape).Idx → EReal) (b6 : (⟨1, ![4]⟩ : Shape).Idx → EReal)
    (W7 : (⟨2, ![1, 4]⟩ : Shape).Idx → EReal) (b7 : (⟨1, ![1]⟩ : Shape).Idx → EReal) :
    (⟨2, ![524288, 1]⟩ : Shape).Idx → EReal :=
  fun i => mlp W1 b1 W2 b2 W3 b3 W4 b4 W5 b5 W6 b6 W7 b7 (fun k => x (ix2 (i 0) k)) (i 1)

theorem G_apply (x : (⟨2, ![524288, 128]⟩ : Shape).Idx → EReal)
    (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![32, 42]⟩ : Shape).Idx → EReal) (b3 : (⟨1, ![32]⟩ : Shape).Idx → EReal)
    (W4 : (⟨2, ![16, 32]⟩ : Shape).Idx → EReal) (b4 : (⟨1, ![16]⟩ : Shape).Idx → EReal)
    (W5 : (⟨2, ![8, 16]⟩ : Shape).Idx → EReal) (b5 : (⟨1, ![8]⟩ : Shape).Idx → EReal)
    (W6 : (⟨2, ![4, 8]⟩ : Shape).Idx → EReal) (b6 : (⟨1, ![4]⟩ : Shape).Idx → EReal)
    (W7 : (⟨2, ![1, 4]⟩ : Shape).Idx → EReal) (b7 : (⟨1, ![1]⟩ : Shape).Idx → EReal)
    (p : Fin 524288) (q : Fin 1) :
    G x W1 b1 W2 b2 W3 b3 W4 b4 W5 b5 W6 b6 W7 b7 (ix2 p q)
      = mlp W1 b1 W2 b2 W3 b3 W4 b4 W5 b5 W6 b6 W7 b7 (fun k => x (ix2 p k)) q := rfl

end Cert.Mlp

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibConcatCols.lean ====
/-
  Matrices laid side by side, read at an entry.

  Two or three matrices with the same number of rows, joined along the column axis, form one matrix. Its entry at row
  `a` and column `j` belongs to the piece whose span of columns holds `j`, and is that piece's entry at row `a` and at the
  column `j` less the widths of the pieces before it.
-/
import Idealize.ShloMosaic.Lib.ValueIdx
import Idealize.ShloMosaic.Lib.Pipeline.Value
noncomputable section
namespace Cert.ConcatCols
open Idealize.ShloMosaic Idealize.ShloMosaic.ValueIdx

variable {α : Type} {A B0 B1 B2 T : Nat}

/-- Two pieces: a column inside the first piece's width reads the first piece at that column. -/
theorem pair_left (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩] h (ix2 a j) = x0 (ix2 a b) :=
  concatenate_pair_apply_left 1 x0 x1 h (ix2 a j) rfl (ix2 a b) (fun c => match c with
    | ⟨0, _⟩ => rfl
    | ⟨1, _⟩ => hj.symm)

/-- Two pieces: a column past the first piece's width reads the second piece at the column less that width. -/
theorem pair_right (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩] h (ix2 a j) = x1 (ix2 a b) :=
  concatenate_pair_apply_right 1 x0 x1 h (ix2 a j) rfl rfl (ix2 a b) (fun c hc => match c, hc with
    | ⟨0, _⟩, _ => rfl
    | ⟨1, _⟩, hc => absurd rfl hc)
    (by show b.val + B0 = j.val; omega)

/-- Three pieces: a column inside the first piece's width reads the first piece at that column. -/
theorem triple_fst (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩, ⟨⟨2, ![A, B2]⟩, x2⟩] h (ix2 a j) = x0 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 0 (by show 0 < 3; omega) ⟨2, ![A, B0]⟩ x0 rfl rfl 0 rfl (ix2 a b)
    (fun c hc => match c, hc with
      | ⟨0, _⟩, _ => rfl
      | ⟨1, _⟩, hc => absurd rfl hc)
    (by show 0 + b.val = j.val; omega)

/-- Three pieces: a column in the second piece's span reads the second piece at the column less the first width. -/
theorem triple_snd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩, ⟨⟨2, ![A, B2]⟩, x2⟩] h (ix2 a j) = x1 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 1 (by show 1 < 3; omega) ⟨2, ![A, B1]⟩ x1 rfl rfl B0 rfl (ix2 a b)
    (fun c hc => match c, hc with
      | ⟨0, _⟩, _ => rfl
      | ⟨1, _⟩, hc => absurd rfl hc)
    (by show B0 + b.val = j.val; omega)

/-- Three pieces: a column in the third piece's span reads the third piece at the column less the first two widths. -/
theorem triple_thd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B2) (j : Fin T)
    (hj : j.val = B0 + B1 + b.val) :
    concatenate ⟨2, ![A, T]⟩ 1 [⟨⟨2, ![A, B0]⟩, x0⟩, ⟨⟨2, ![A, B1]⟩, x1⟩, ⟨⟨2, ![A, B2]⟩, x2⟩] h (ix2 a j) = x2 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 2 (by show 2 < 3; omega) ⟨2, ![A, B2]⟩ x2 rfl rfl (B0 + B1) rfl (ix2 a b)
    (fun c hc => match c, hc with
      | ⟨0, _⟩, _ => rfl
      | ⟨1, _⟩, hc => absurd rfl hc)
    (by show B0 + B1 + b.val = j.val; omega)

end Cert.ConcatCols
-- ==== Proof.PackedLayer.lean ====
/-
  One layer of the kernel body on a packed matrix of activations, read at an entry.

  The body keeps, for every row `r` of a half tile, the activations of row `r` of the first half and of row `r` of the
  second half side by side: an `[M, d + d]` matrix whose row `r` is `pack (a0 r) (a1 r)`. One layer multiplies it by
  the block-diagonal `[d + d, e + e]` matrix of the transposed weights into a zero accumulator, adds the row
  `[1, e + e]` holding the bias twice (broadcast down the rows), and, for all layers but the last, takes the maximum
  with zero. On the extended reals the matrix product at `(r, j)` is the sum over `k` of the products, so by the
  packed-row algebra the layer's output row `r` is `pack` of the layer applied to `a0 r` and to `a1 r`.
  The first layer's input is the two half tiles joined along the columns, whose row `r` is `pack` of the two rows.
-/
import proofs.«175643_j62766652064010_2_alg».proof.Proof.Spec
import proofs.«175643_j62766652064010_2_alg».proof.Proof.LibMatmul
import proofs.«175643_j62766652064010_2_alg».proof.Proof.LibConcatCols
import Idealize.ShloMosaic.Lib.ValueLayout
import Idealize.ShloMosaic.Lib.Pipeline.Value
import Idealize.ShloMosaic.PureOps.Ideal.Laws

open scoped BigOperators

noncomputable section

namespace Cert.Mlp

open Idealize.ShloMosaic Idealize.ShloMosaic.ValueIdx

/-- The linear part of a packed layer at `(r, j)`: the layer's linear part on each of the two rows, packed. -/
theorem packed_linear_apply {M d e : Nat} (hp : FVec Ideal ⟨2, ![M, d + d]⟩ .f32) (w : FVec Ideal ⟨2, ![d + d, e + e]⟩ .f32)
    (bb : FVec Ideal ⟨2, ![1, e + e]⟩ .f32)
    (hsw : (⟨2, ![d + d, e + e]⟩ : Shape).ShapeCasts ⟨2, ![d + d, e + e]⟩)
    (hsb : (⟨2, ![1, e + e]⟩ : Shape).ShapeCasts ⟨2, ![1, e + e]⟩)
    (hbc : (⟨2, ![1, e + e]⟩ : Shape).Broadcasts ⟨2, ![M, e + e]⟩)
    (W : (⟨2, ![e, d]⟩ : Shape).Idx → EReal) (b : (⟨1, ![e]⟩ : Shape).Idx → EReal) (a0 a1 : Fin M → Fin d → EReal)
    (hhp : ∀ (r : Fin M) (k : Fin (d + d)), hp (ix2 r k) = pack (a0 r) (a1 r) k)
    (hw : ∀ (k : Fin (d + d)) (j : Fin (e + e)), w (ix2 k j) = blockDiag W k j)
    (hb : ∀ j : Fin (e + e), bb (ix2 (0 : Fin 1) j) = pack (fun j => b (ix1 j)) (fun j => b (ix1 j)) j)
    (r : Fin M) (j : Fin (e + e)) :
    addf (matmul (F := Ideal) (DotDims.plain M (d + d) (e + e)) none hp (shapeCast ⟨2, ![d + d, e + e]⟩ w hsw)
        (constant ⟨2, ![M, e + e]⟩ .f32 0x00000000#32))
      (broadcastTo ⟨2, ![M, e + e]⟩ (shapeCast ⟨2, ![1, e + e]⟩ bb hsb) hbc) (ix2 r j)
      = pack (lin W b (a0 r)) (lin W b (a1 r)) j := by
  rw [addf_apply, Cert.MatOps.matmul_plain_zero_apply, shapeCast_self, shapeCast_self, broadcastTo_1b_ab_apply, hb,
    ← packed_lin W b (a0 r) (a1 r) j]
  congr 1
  exact Finset.sum_congr rfl fun k _ => by rw [hhp, hw]

/-- A packed layer followed by the maximum with zero, at `(r, j)`. -/
theorem packed_layer_relu_apply {M d e : Nat} (hp : FVec Ideal ⟨2, ![M, d + d]⟩ .f32) (w : FVec Ideal ⟨2, ![d + d, e + e]⟩ .f32)
    (bb : FVec Ideal ⟨2, ![1, e + e]⟩ .f32)
    (hsw : (⟨2, ![d + d, e + e]⟩ : Shape).ShapeCasts ⟨2, ![d + d, e + e]⟩)
    (hsb : (⟨2, ![1, e + e]⟩ : Shape).ShapeCasts ⟨2, ![1, e + e]⟩)
    (hbc : (⟨2, ![1, e + e]⟩ : Shape).Broadcasts ⟨2, ![M, e + e]⟩)
    (W : (⟨2, ![e, d]⟩ : Shape).Idx → EReal) (b : (⟨1, ![e]⟩ : Shape).Idx → EReal) (a0 a1 : Fin M → Fin d → EReal)
    (hhp : ∀ (r : Fin M) (k : Fin (d + d)), hp (ix2 r k) = pack (a0 r) (a1 r) k)
    (hw : ∀ (k : Fin (d + d)) (j : Fin (e + e)), w (ix2 k j) = blockDiag W k j)
    (hb : ∀ j : Fin (e + e), bb (ix2 (0 : Fin 1) j) = pack (fun j => b (ix1 j)) (fun j => b (ix1 j)) j)
    (r : Fin M) (j : Fin (e + e)) :
    maximumf (addf (matmul (F := Ideal) (DotDims.plain M (d + d) (e + e)) none hp (shapeCast ⟨2, ![d + d, e + e]⟩ w hsw)
          (constant ⟨2, ![M, e + e]⟩ .f32 0x00000000#32))
        (broadcastTo ⟨2, ![M, e + e]⟩ (shapeCast ⟨2, ![1, e + e]⟩ bb hsb) hbc))
      (broadcast ⟨2, ![M, e + e]⟩ (Scalar.ofBits (F := Ideal) .f32 0x00000000#32)) (ix2 r j)
      = pack (relu (lin W b (a0 r))) (relu (lin W b (a1 r))) j := by
  rw [maximumf_apply, packed_linear_apply hp w bb hsw hsb hbc W b a0 a1 hhp hw hb r j, broadcast_apply,
    ← packed_relu]
  congr 1
  exact Ideal.ofBits_zero_f32

/-- Two half tiles joined along the columns: row `r` is the two rows side by side. -/
theorem concat_halves_apply {M d : Nat} (x0 x1 : (⟨2, ![M, d]⟩ : Shape).Idx → EReal)
    (h : Shape.Concatenates [⟨2, ![M, d]⟩, ⟨2, ![M, d]⟩] ⟨2, ![M, d + d]⟩ 1) (r : Fin M) (k : Fin (d + d)) :
    concatenate ⟨2, ![M, d + d]⟩ 1 [⟨⟨2, ![M, d]⟩, x0⟩, ⟨⟨2, ![M, d]⟩, x1⟩] h (ix2 r k)
      = pack (fun k => x0 (ix2 r k)) (fun k => x1 (ix2 r k)) k := by
  by_cases hk : k.val < d
  · rw [pack_of_lt _ _ k hk]
    exact Cert.ConcatCols.pair_left x0 x1 h r ⟨k.val, hk⟩ k rfl
  · have hk' : d ≤ k.val := Nat.le_of_not_lt hk
    rw [pack_of_ge _ _ k hk']
    exact Cert.ConcatCols.pair_right x0 x1 h r ⟨k.val - d, by have := k.isLt; omega⟩ k (by show k.val = d + (k.val - d); omega)

end Cert.Mlp

end
-- ==== Proof.Payload.lean ====
/-
  The kernel body's arithmetic, read at an entry.

  The body's two payload terms, composed, take the two half tiles (the first and the second 4096 rows of the point's
  8192-row block of the input), the seven block-diagonal weight matrices and the seven repeated-bias rows to a
  `[4096, 2]` matrix. Layer by layer the intermediate matrix holds in row `r` the activations of row `r` of the first
  half tile and of row `r` of the second, side by side; so the result's entry `(r, 0)` is the network on row `r` of the
  first half tile and its entry `(r, 1)` the network on row `r` of the second.
-/
import proofs.«175643_j62766652064010_2_alg».proof.Proof.Gen.KernelIdeal.Skeleton
import proofs.«175643_j62766652064010_2_alg».proof.Proof.PackedLayer

open scoped BigOperators

noncomputable section

namespace Cert.Mlp

open Idealize.ShloMosaic Idealize.ShloMosaic.ValueIdx

/-- The first layer with its `relu`. -/
def net1 (W1 : (⟨2, ![84, 128]⟩ : Shape).Idx → EReal) (b1 : (⟨1, ![84]⟩ : Shape).Idx → EReal)
    (a : Fin 128 → EReal) : Fin 84 → EReal := relu (lin W1 b1 a)
/-- The first 2 layers, each with its `relu`. -/
def net2 (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (a : Fin 128 → EReal) : Fin 42 → EReal := relu (lin W2 b2 (net1 W1 b1 a))
/-- The first 3 layers, each with its `relu`. -/
def net3 (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![32, 42]⟩ : Shape).Idx → EReal) (b3 : (⟨1, ![32]⟩ : Shape).Idx → EReal)
    (a : Fin 128 → EReal) : Fin 32 → EReal := relu (lin W3 b3 (net2 W1 b1 W2 b2 a))
/-- The first 4 layers, each with its `relu`. -/
def net4 (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![32, 42]⟩ : Shape).Idx → EReal) (b3 : (⟨1, ![32]⟩ : Shape).Idx → EReal)
    (W4 : (⟨2, ![16, 32]⟩ : Shape).Idx → EReal) (b4 : (⟨1, ![16]⟩ : Shape).Idx → EReal)
    (a : Fin 128 → EReal) : Fin 16 → EReal := relu (lin W4 b4 (net3 W1 b1 W2 b2 W3 b3 a))
/-- The first 5 layers, each with its `relu`. -/
def net5 (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![32, 42]⟩ : Shape).Idx → EReal) (b3 : (⟨1, ![32]⟩ : Shape).Idx → EReal)
    (W4 : (⟨2, ![16, 32]⟩ : Shape).Idx → EReal) (b4 : (⟨1, ![16]⟩ : Shape).Idx → EReal)
    (W5 : (⟨2, ![8, 16]⟩ : Shape).Idx → EReal) (b5 : (⟨1, ![8]⟩ : Shape).Idx → EReal)
    (a : Fin 128 → EReal) : Fin 8 → EReal := relu (lin W5 b5 (net4 W1 b1 W2 b2 W3 b3 W4 b4 a))
/-- The first 6 layers, each with its `relu`. -/
def net6 (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![32, 42]⟩ : Shape).Idx → EReal) (b3 : (⟨1, ![32]⟩ : Shape).Idx → EReal)
    (W4 : (⟨2, ![16, 32]⟩ : Shape).Idx → EReal) (b4 : (⟨1, ![16]⟩ : Shape).Idx → EReal)
    (W5 : (⟨2, ![8, 16]⟩ : Shape).Idx → EReal) (b5 : (⟨1, ![8]⟩ : Shape).Idx → EReal)
    (W6 : (⟨2, ![4, 8]⟩ : Shape).Idx → EReal) (b6 : (⟨1, ![4]⟩ : Shape).Idx → EReal)
    (a : Fin 128 → EReal) : Fin 4 → EReal := relu (lin W6 b6 (net5 W1 b1 W2 b2 W3 b3 W4 b4 W5 b5 a))

theorem mlp_eq_net6 (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![32, 42]⟩ : Shape).Idx → EReal) (b3 : (⟨1, ![32]⟩ : Shape).Idx → EReal)
    (W4 : (⟨2, ![16, 32]⟩ : Shape).Idx → EReal) (b4 : (⟨1, ![16]⟩ : Shape).Idx → EReal)
    (W5 : (⟨2, ![8, 16]⟩ : Shape).Idx → EReal) (b5 : (⟨1, ![8]⟩ : Shape).Idx → EReal)
    (W6 : (⟨2, ![4, 8]⟩ : Shape).Idx → EReal) (b6 : (⟨1, ![4]⟩ : Shape).Idx → EReal)
    (W7 : (⟨2, ![1, 4]⟩ : Shape).Idx → EReal) (b7 : (⟨1, ![1]⟩ : Shape).Idx → EReal)
    (a : Fin 128 → EReal) :
    mlp W1 b1 W2 b2 W3 b3 W4 b4 W5 b5 W6 b6 W7 b7 a = lin W7 b7 (net6 W1 b1 W2 b2 W3 b3 W4 b4 W5 b5 W6 b6 a) := rfl

end Cert.Mlp

namespace Cert.KernelIdeal.Payload

open Cert.KernelIdeal Cert.KernelIdeal.Gen Cert.Mlp Idealize.ShloMosaic Idealize.ShloMosaic.ValueIdx

/-- The composed payload at `(r, q)`: the network on row `r` of each half tile, packed. -/
theorem pay_apply (P0 P1 : Vec Ideal S4096x128 .f32) (P2 : Vec Ideal S256x168 .f32) (P3 : Vec Ideal S1x168 .f32)
    (P4 : Vec Ideal S168x84 .f32) (P5 : Vec Ideal S1x84 .f32) (P6 : Vec Ideal S84x64 .f32) (P7 : Vec Ideal S1x64 .f32)
    (P8 : Vec Ideal S64x32 .f32) (P9 : Vec Ideal S1x32 .f32) (P10 : Vec Ideal S32x16 .f32) (P11 : Vec Ideal S1x16 .f32)
    (P12 : Vec Ideal S16x8 .f32) (P13 : Vec Ideal S1x8 .f32) (P14 : Vec Ideal S8x2 .f32) (P15 : Vec Ideal S1x2 .f32)
    (W1 : (⟨2, ![84, 128]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![32, 42]⟩ : Shape).Idx → EReal) (b3 : (⟨1, ![32]⟩ : Shape).Idx → EReal)
    (W4 : (⟨2, ![16, 32]⟩ : Shape).Idx → EReal) (b4 : (⟨1, ![16]⟩ : Shape).Idx → EReal)
    (W5 : (⟨2, ![8, 16]⟩ : Shape).Idx → EReal) (b5 : (⟨1, ![8]⟩ : Shape).Idx → EReal)
    (W6 : (⟨2, ![4, 8]⟩ : Shape).Idx → EReal) (b6 : (⟨1, ![4]⟩ : Shape).Idx → EReal)
    (W7 : (⟨2, ![1, 4]⟩ : Shape).Idx → EReal) (b7 : (⟨1, ![1]⟩ : Shape).Idx → EReal)
    (h2 : ∀ (k : Fin (128 + 128)) (j : Fin (84 + 84)), P2 (ix2 k j) = blockDiag W1 k j)
    (h3 : ∀ j : Fin (84 + 84), P3 (ix2 (0 : Fin 1) j) = pack (fun j => b1 (ix1 j)) (fun j => b1 (ix1 j)) j)
    (h4 : ∀ (k : Fin (84 + 84)) (j : Fin (42 + 42)), P4 (ix2 k j) = blockDiag W2 k j)
    (h5 : ∀ j : Fin (42 + 42), P5 (ix2 (0 : Fin 1) j) = pack (fun j => b2 (ix1 j)) (fun j => b2 (ix1 j)) j)
    (h6 : ∀ (k : Fin (42 + 42)) (j : Fin (32 + 32)), P6 (ix2 k j) = blockDiag W3 k j)
    (h7 : ∀ j : Fin (32 + 32), P7 (ix2 (0 : Fin 1) j) = pack (fun j => b3 (ix1 j)) (fun j => b3 (ix1 j)) j)
    (h8 : ∀ (k : Fin (32 + 32)) (j : Fin (16 + 16)), P8 (ix2 k j) = blockDiag W4 k j)
    (h9 : ∀ j : Fin (16 + 16), P9 (ix2 (0 : Fin 1) j) = pack (fun j => b4 (ix1 j)) (fun j => b4 (ix1 j)) j)
    (h10 : ∀ (k : Fin (16 + 16)) (j : Fin (8 + 8)), P10 (ix2 k j) = blockDiag W5 k j)
    (h11 : ∀ j : Fin (8 + 8), P11 (ix2 (0 : Fin 1) j) = pack (fun j => b5 (ix1 j)) (fun j => b5 (ix1 j)) j)
    (h12 : ∀ (k : Fin (8 + 8)) (j : Fin (4 + 4)), P12 (ix2 k j) = blockDiag W6 k j)
    (h13 : ∀ j : Fin (4 + 4), P13 (ix2 (0 : Fin 1) j) = pack (fun j => b6 (ix1 j)) (fun j => b6 (ix1 j)) j)
    (h14 : ∀ (k : Fin (4 + 4)) (j : Fin (1 + 1)), P14 (ix2 k j) = blockDiag W7 k j)
    (h15 : ∀ j : Fin (1 + 1), P15 (ix2 (0 : Fin 1) j) = pack (fun j => b7 (ix1 j)) (fun j => b7 (ix1 j)) j)
    (r : Fin 4096) (q : Fin (1 + 1)) :
    k0_pay2 (F := Ideal) (k0_pay1 (F := Ideal) P0 P1 P2 P3 P4 P5 P6 P7 P8) P9 P10 P11 P12 P13 P14 P15 (ix2 r q)
      = pack (mlp W1 b1 W2 b2 W3 b3 W4 b4 W5 b5 W6 b6 W7 b7 (fun k => P0 (ix2 r k)))
          (mlp W1 b1 W2 b2 W3 b3 W4 b4 W5 b5 W6 b6 W7 b7 (fun k => P1 (ix2 r k))) q := by
  unfold k0_pay2 k0_pay1
  refine packed_linear_apply (M := 4096) (d := 4) (e := 1) _ P14 P15 _ _ _ W7 b7
    (fun r => net6 W1 b1 W2 b2 W3 b3 W4 b4 W5 b5 W6 b6 (fun k => P0 (ix2 r k)))
    (fun r => net6 W1 b1 W2 b2 W3 b3 W4 b4 W5 b5 W6 b6 (fun k => P1 (ix2 r k))) ?_ h14 h15 r q
  intro r k
  refine packed_layer_relu_apply (M := 4096) (d := 8) (e := 4) _ P12 P13 _ _ _ W6 b6
    (fun r => net5 W1 b1 W2 b2 W3 b3 W4 b4 W5 b5 (fun k => P0 (ix2 r k)))
    (fun r => net5 W1 b1 W2 b2 W3 b3 W4 b4 W5 b5 (fun k => P1 (ix2 r k))) ?_ h12 h13 r k
  intro r k
  refine packed_layer_relu_apply (M := 4096) (d := 16) (e := 8) _ P10 P11 _ _ _ W5 b5
    (fun r => net4 W1 b1 W2 b2 W3 b3 W4 b4 (fun k => P0 (ix2 r k)))
    (fun r => net4 W1 b1 W2 b2 W3 b3 W4 b4 (fun k => P1 (ix2 r k))) ?_ h10 h11 r k
  intro r k
  refine packed_layer_relu_apply (M := 4096) (d := 32) (e := 16) _ P8 P9 _ _ _ W4 b4
    (fun r => net3 W1 b1 W2 b2 W3 b3 (fun k => P0 (ix2 r k)))
    (fun r => net3 W1 b1 W2 b2 W3 b3 (fun k => P1 (ix2 r k))) ?_ h8 h9 r k
  intro r k
  refine packed_layer_relu_apply (M := 4096) (d := 42) (e := 32) _ P6 P7 _ _ _ W3 b3
    (fun r => net2 W1 b1 W2 b2 (fun k => P0 (ix2 r k)))
    (fun r => net2 W1 b1 W2 b2 (fun k => P1 (ix2 r k))) ?_ h6 h7 r k
  intro r k
  refine packed_layer_relu_apply (M := 4096) (d := 84) (e := 42) _ P4 P5 _ _ _ W2 b2
    (fun r => net1 W1 b1 (fun k => P0 (ix2 r k)))
    (fun r => net1 W1 b1 (fun k => P1 (ix2 r k))) ?_ h4 h5 r k
  intro r k
  refine packed_layer_relu_apply (M := 4096) (d := 128) (e := 84) _ P2 P3 _ _ _ W1 b1
    (fun r k => P0 (ix2 r k)) (fun r k => P1 (ix2 r k)) ?_ h2 h3 r k
  intro r k
  exact concat_halves_apply (M := 4096) (d := 128) P0 P1 _ r k

end Cert.KernelIdeal.Payload

end
-- ==== Proof.LibScatterWindow.lean ====
/-
  A window written into a matrix at a fixed corner, read at an entry.

  `x.at[r0 : r0 + P, c0 : c0 + Q].set(u)` lowers to a scatter with ONE index vector `[r0, c0]`: both axes of the update
  are window axes, none is inserted, and component `a` of the index vector is the window's start on axis `a`. The
  scatter visits the update's entries in row-major order, and entry `(p, q)` replaces the operand's entry at
  `(r0 + p, c0 + q)`. Distinct entries of the update land on distinct entries of the operand, so when the window lies
  inside the operand the result at `(a, b)` is the update's entry `(a − r0, b − c0)` where `(a, b)` is inside the
  window and the operand's own entry elsewhere.
-/
import Idealize.ShloMosaic.PureOps.Ideal
import Idealize.ShloMosaic.Lib.ValueIdx

noncomputable section

namespace Cert.Lib.ScatterWindow

open Idealize.ShloMosaic Idealize.ShloMosaic.ValueIdx

/-- The dimension numbers of `x.at[r0 : r0 + P, c0 : c0 + Q].set(u)` for a matrix operand `[A, B]`, one index vector
    `[2]` and an update `[P, Q]`. -/
abbrev winDims (A B P Q : Nat) (wf : ScatterDims.WF ⟨2, ![A, B]⟩ ⟨1, ![2]⟩ ⟨2, ![P, Q]⟩ [0, 1] [] [0, 1] 0) :
    ScatterDims ⟨2, ![A, B]⟩ ⟨1, ![2]⟩ ⟨2, ![P, Q]⟩ where
  updateWindowDims := [0, 1]
  insertedWindowDims := []
  scatterDimsToOperandDims := [0, 1]
  indexVectorDim := 0
  wf := wf

/-! ## A fold whose steps each change at most one entry -/

section Fold

variable {ι α β : Type}

/-- A fold none of whose steps changes entry `i'` leaves entry `i'` as it was at the start. -/
theorem foldl_entry_miss (step : (ι → α) → β → (ι → α)) (l : List β) (r : ι → α) (i' : ι)
    (h : ∀ m ∈ l, ∀ r, step r m i' = r i') : (l.foldl step r) i' = r i' := by
  induction l generalizing r with
  | nil => rfl
  | cons m l ih =>
    rw [List.foldl_cons, ih _ (fun k hk => h k (List.mem_cons_of_mem _ hk))]
    exact h m List.mem_cons_self r

/-- If one step `n0` of the list sets entry `i'` to `val` whatever was there, and every other step leaves entry `i'`
    alone, the fold leaves `val` at `i'`. -/
theorem foldl_entry_hit (step : (ι → α) → β → (ι → α)) (l : List β) (r : ι → α) (i' : ι) (n0 : β) (val : α)
    (hmem : n0 ∈ l) (hhit : ∀ r, step r n0 i' = val) (hmiss : ∀ m ∈ l, m ≠ n0 → ∀ r, step r m i' = r i') :
    (l.foldl step r) i' = val := by
  induction l generalizing r with
  | nil => exact absurd hmem List.not_mem_nil
  | cons m l ih =>
    rw [List.foldl_cons]
    by_cases hn : n0 ∈ l
    · exact ih _ hn (fun k hk => hmiss k (List.mem_cons_of_mem _ hk))
    · have hm : n0 = m := by
        rcases List.mem_cons.1 hmem with h | h
        · exact h
        · exact absurd h hn
      subst hm
      rw [foldl_entry_miss step l _ i'
        (fun k hk => hmiss k (List.mem_cons_of_mem _ hk) (fun e => hn (e ▸ hk)))]
      exact hhit r

end Fold

/-! ## Where an entry of the update lands -/

section Land

variable {A B P Q w : Nat} (wf : ScatterDims.WF ⟨2, ![A, B]⟩ ⟨1, ![2]⟩ ⟨2, ![P, Q]⟩ [0, 1] [] [0, 1] 0)

/-- On the row axis the window starts at the first component of the index vector, whatever the update entry is. -/
theorem start0 (j : (⟨2, ![P, Q]⟩ : Shape).Idx) (idx : IVec ⟨1, ![2]⟩ w) :
    (winDims A B P Q wf).start j idx 0 = (idx (ix1 (0 : Fin 2))).toInt := by
  unfold ScatterDims.start
  rw [dif_pos (by simp)]
  congr 2
  funext b; refine Fin.ext ?_; match b with | ⟨0, _⟩ => rfl

/-- On the column axis the window starts at the second component of the index vector, whatever the update entry is. -/
theorem start1 (j : (⟨2, ![P, Q]⟩ : Shape).Idx) (idx : IVec ⟨1, ![2]⟩ w) :
    (winDims A B P Q wf).start j idx 1 = (idx (ix1 (1 : Fin 2))).toInt := by
  unfold ScatterDims.start
  rw [dif_pos (by simp)]
  congr 2
  funext b; refine Fin.ext ?_; match b with | ⟨0, _⟩ => rfl

/-- The offset of update entry `j` inside the window on the row axis is its row coordinate. -/
theorem window0 (j : (⟨2, ![P, Q]⟩ : Shape).Idx) :
    (winDims A B P Q wf).window j 0 = (j 0).val := by
  unfold ScatterDims.window
  rw [dif_pos (by simp [ScatterDims.sKept, Shape.kept])]
  rfl

/-- The offset of update entry `j` inside the window on the column axis is its column coordinate. -/
theorem window1 (j : (⟨2, ![P, Q]⟩ : Shape).Idx) :
    (winDims A B P Q wf).window j 1 = (j 1).val := by
  unfold ScatterDims.window
  rw [dif_pos (by simp [ScatterDims.sKept, Shape.kept])]
  rfl

/-- With the corner at `(r0, c0)` and the window inside the operand, update entry `j` lands on the operand's entry
    `(r0 + j 0, c0 + j 1)`: start plus offset on each axis, and that is in range. -/
theorem land (idx : IVec ⟨1, ![2]⟩ w) (r0 c0 : Nat)
    (h0 : (idx (ix1 (0 : Fin 2))).toInt = (r0 : Int)) (h1 : (idx (ix1 (1 : Fin 2))).toInt = (c0 : Int))
    (hr : r0 + P ≤ A) (hc : c0 + Q ≤ B) (j : (⟨2, ![P, Q]⟩ : Shape).Idx) :
    (winDims A B P Q wf).resultIdx? j idx
      = some (ix2 ⟨r0 + (j 0).val, by have := idx2_lt0 j; omega⟩ ⟨c0 + (j 1).val, by have := idx2_lt1 j; omega⟩) := by
  have hp := idx2_lt0 j
  have hq := idx2_lt1 j
  unfold ScatterDims.resultIdx?
  have hall : ∀ a, 0 ≤ (winDims A B P Q wf).start j idx a + (winDims A B P Q wf).window j a ∧
      (winDims A B P Q wf).start j idx a + (winDims A B P Q wf).window j a < (⟨2, ![A, B]⟩ : Shape).size a := by
    intro a
    match a with
    | ⟨0, _⟩ =>
      show 0 ≤ (winDims A B P Q wf).start j idx 0 + (winDims A B P Q wf).window j 0 ∧
        (winDims A B P Q wf).start j idx 0 + (winDims A B P Q wf).window j 0 < (A : Int)
      rw [start0, window0, h0]; omega
    | ⟨1, _⟩ =>
      show 0 ≤ (winDims A B P Q wf).start j idx 1 + (winDims A B P Q wf).window j 1 ∧
        (winDims A B P Q wf).start j idx 1 + (winDims A B P Q wf).window j 1 < (B : Int)
      rw [start1, window1, h1]; omega
  rw [dif_pos hall]
  congr 1
  funext a; refine Fin.ext ?_
  match a with
  | ⟨0, _⟩ =>
    show ((winDims A B P Q wf).start j idx 0 + (winDims A B P Q wf).window j 0).toNat = r0 + (j 0).val
    rw [start0, window0, h0]; omega
  | ⟨1, _⟩ =>
    show ((winDims A B P Q wf).start j idx 1 + (winDims A B P Q wf).window j 1).toNat = c0 + (j 1).val
    rw [start1, window1, h1]; omega

end Land

/-- The window scatter read at `(a, b)`: the update inside the window, the operand outside it. -/
theorem scatter_window_set_apply {α : Type} {A B P Q w : Nat}
    (wf : ScatterDims.WF ⟨2, ![A, B]⟩ ⟨1, ![2]⟩ ⟨2, ![P, Q]⟩ [0, 1] [] [0, 1] 0)
    (x : (⟨2, ![A, B]⟩ : Shape).Idx → α) (idx : IVec ⟨1, ![2]⟩ w) (upd : (⟨2, ![P, Q]⟩ : Shape).Idx → α)
    (r0 c0 : Nat) (h0 : (idx (ix1 (0 : Fin 2))).toInt = (r0 : Int)) (h1 : (idx (ix1 (1 : Fin 2))).toInt = (c0 : Int))
    (hr : r0 + P ≤ A) (hc : c0 + Q ≤ B) (a : Fin A) (b : Fin B) :
    Host.scatter (winDims A B P Q wf) (fun _ v => v) x idx upd (ix2 a b)
      = if h : (r0 ≤ a.val ∧ a.val < r0 + P) ∧ (c0 ≤ b.val ∧ b.val < c0 + Q) then
          upd (ix2 ⟨a.val - r0, by omega⟩ ⟨b.val - c0, by omega⟩)
        else x (ix2 a b) := by
  have hland := land wf idx r0 c0 h0 h1 hr hc
  unfold Host.scatter
  by_cases h : (r0 ≤ a.val ∧ a.val < r0 + P) ∧ (c0 ≤ b.val ∧ b.val < c0 + Q)
  · rw [dif_pos h]
    refine (foldl_entry_hit _ _ _ _
      ((⟨2, ![P, Q]⟩ : Shape).rowMajor (ix2 ⟨a.val - r0, by omega⟩ ⟨b.val - c0, by omega⟩))
      (upd (ix2 ⟨a.val - r0, by omega⟩ ⟨b.val - c0, by omega⟩)) (List.mem_finRange _) ?_ ?_)
    · intro r
      beta_reduce
      rw [Equiv.symm_apply_apply, hland]
      show (if ix2 a b = _ then _ else _) = _
      rw [if_pos]
      funext d; refine Fin.ext ?_
      match d with
      | ⟨0, _⟩ => show a.val = r0 + (a.val - r0); omega
      | ⟨1, _⟩ => show b.val = c0 + (b.val - c0); omega
    · intro m _ hne r
      beta_reduce
      rw [hland]
      show (if ix2 a b = _ then _ else _) = _
      rw [if_neg]
      intro e
      have ea : a.val = r0 + (((⟨2, ![P, Q]⟩ : Shape).rowMajor.symm m) 0).val := congrArg Fin.val (congrFun e 0)
      have eb : b.val = c0 + (((⟨2, ![P, Q]⟩ : Shape).rowMajor.symm m) 1).val := congrArg Fin.val (congrFun e 1)
      apply hne
      rw [← Equiv.symm_apply_eq]
      funext d; refine Fin.ext ?_
      match d with
      | ⟨0, _⟩ => show (((⟨2, ![P, Q]⟩ : Shape).rowMajor.symm m) 0).val = a.val - r0; omega
      | ⟨1, _⟩ => show (((⟨2, ![P, Q]⟩ : Shape).rowMajor.symm m) 1).val = b.val - c0; omega
  · rw [dif_neg h]
    refine foldl_entry_miss _ _ _ _ ?_
    intro m _ r
    beta_reduce
    rw [hland]
    show (if ix2 a b = _ then _ else _) = _
    rw [if_neg]
    intro e
    have ea : a.val = r0 + (((⟨2, ![P, Q]⟩ : Shape).rowMajor.symm m) 0).val := congrArg Fin.val (congrFun e 0)
    have eb : b.val = c0 + (((⟨2, ![P, Q]⟩ : Shape).rowMajor.symm m) 1).val := congrArg Fin.val (congrFun e 1)
    have hp := idx2_lt0 ((⟨2, ![P, Q]⟩ : Shape).rowMajor.symm m)
    have hq := idx2_lt1 ((⟨2, ![P, Q]⟩ : Shape).rowMajor.symm m)
    exact h ⟨⟨by omega, by omega⟩, ⟨by omega, by omega⟩⟩

end Cert.Lib.ScatterWindow

end
-- ==== Proof.WindowsW.lean ====
/-
  The block-diagonal weight matrices the host prepares, read at an entry.

  For each layer with weight `W` stored `[e, d]` (outputs by inputs) the host forms the matrix `[d + d, e + e]` that
  carries the transpose of `W` twice along the diagonal and zeros elsewhere: it starts from the all-zero matrix and
  writes the transposed weight once with its corner at `(0, 0)` and once with its corner at `(d, e)`. The two windows
  are disjoint and together with the untouched zeros they cover the matrix, so the entry at `(k, j)` is `W(j, k)` in the
  upper-left block, `W(j − e, k − d)` in the lower-right block and `0` in the two off-diagonal blocks: the
  specification's `blockDiag W k j`. One statement in the sizes `d`, `e` does the case analysis; the seven layers are
  its instances `(128, 84)`, `(84, 42)`, `(42, 32)`, `(32, 16)`, `(16, 8)`, `(8, 4)`, `(4, 1)`.
-/
import proofs.«175643_j62766652064010_2_alg».proof.Proof.Gen.KernelIdeal.Frame
import proofs.«175643_j62766652064010_2_alg».proof.Proof.Spec
import proofs.«175643_j62766652064010_2_alg».proof.Proof.LibScatterWindow
import proofs.«175643_j62766652064010_2_alg».proof.Proof.LibMatmul
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open Cert.KernelIdeal Cert.KernelIdeal.Gen Idealize.ShloMosaic Idealize.ShloMosaic.TcCoe Idealize.ShloMosaic.ValueIdx Idealize.SL.Sem
open Idealize.ShloMosaic.StableHlo Cert.Lib.ScatterWindow

namespace Cert.KernelIdeal.Windows

variable (m : (ℓ : Loc nD τ sig) → Buf (Elt Ideal) ℓ) (c : Dev nD)

/-! ## The pieces: the zero matrix and the two corner vectors -/

/-- The scalar zero word spread over any shape is `0` at every index. -/
theorem zero_fill {t : Shape} (h : S_.BroadcastsInDim t (![] : Fin 0 → Fin t.rank)) (i : t.Idx) :
    broadcastInDim t ![] h (constant (F := Ideal) S_ .f32 0x00000000#32) i = (0 : EReal) := by
  refine (broadcastInDim_apply (![] : Fin 0 → Fin t.rank) h _ i ix0 (fun a => a.elim0)).trans ?_
  rw [constant_apply, Ideal.ofBits_zero_f32]

/-- The corner vector `[a, b]`: two one-element vectors, each a scalar constant spread, joined end to end. -/
abbrev corner (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-- Its first component is `a`. -/
theorem corner_fst (a b : BitVec 32) : corner a b (ix1 (0 : Fin 2)) = a := by
  refine (concatenate_pair_apply_left (t := S2) (s₁ := S1) (s₂ := S1) 0 _ _ concatenates_S1_S1_S2_d0
    (ix1 (0 : Fin 2)) rfl (ix1 (0 : Fin 1)) (fun b => by match b with | ⟨0, _⟩ => rfl)).trans ?_
  rfl

/-- Its second component is `b`. -/
theorem corner_snd (a b : BitVec 32) : corner a b (ix1 (1 : Fin 2)) = b := by
  refine (concatenate_pair_apply_right (t := S2) (s₁ := S1) (s₂ := S1) 0 _ _ concatenates_S1_S1_S2_d0
    (ix1 (1 : Fin 2)) rfl rfl (ix1 (0 : Fin 1)) (fun b hb => by match b with | ⟨0, _⟩ => exact absurd rfl hb) rfl).trans ?_
  rfl

/-! ## Two disjoint windows on the diagonal of a zero matrix -/

/-- Writing the transpose `T` of `W` into the zero matrix `z` at the corner `(0, 0)` and then at the corner `(d, e)`
    gives the block-diagonal matrix of `W`. At `(k, j)` in the lower-right window the second write decides; elsewhere
    the second write leaves the first one's result, which is `T` in the upper-left window and `z`, zero, outside it. -/
theorem two_windows {d e : Nat}
    (wf : ScatterDims.WF ⟨2, ![d + d, e + e]⟩ ⟨1, ![2]⟩ ⟨2, ![d, e]⟩ [0, 1] [] [0, 1] 0)
    (W : (⟨2, ![e, d]⟩ : Shape).Idx → EReal)
    (z : (⟨2, ![d + d, e + e]⟩ : Shape).Idx → EReal) (hz : ∀ a b, z (ix2 a b) = 0)
    (T : (⟨2, ![d, e]⟩ : Shape).Idx → EReal) (hT : ∀ (a : Fin d) (b : Fin e), T (ix2 a b) = W (ix2 b a))
    (i0 i1 : IVec ⟨1, ![2]⟩ 32)
    (h00 : (i0 (ix1 (0 : Fin 2))).toInt = ((0 : Nat) : Int)) (h01 : (i0 (ix1 (1 : Fin 2))).toInt = ((0 : Nat) : Int))
    (h10 : (i1 (ix1 (0 : Fin 2))).toInt = (d : Int)) (h11 : (i1 (ix1 (1 : Fin 2))).toInt = (e : Int))
    (k : Fin (d + d)) (j : Fin (e + e)) :
    Host.scatter (winDims (d + d) (e + e) d e wf) (fun _ v => v)
        (Host.scatter (winDims (d + d) (e + e) d e wf) (fun _ v => v) z i0 T) i1 T (ix2 k j)
      = Cert.Mlp.blockDiag W k j := by
  have hk := k.isLt
  have hj := j.isLt
  rw [scatter_window_set_apply wf _ i1 T d e h10 h11 (Nat.le_refl _) (Nat.le_refl _) k j]
  unfold Cert.Mlp.blockDiag
  by_cases h1 : (d ≤ k.val ∧ k.val < d + d) ∧ (e ≤ j.val ∧ j.val < e + e)
  · have hn : ¬ (k.val < d ∧ j.val < e) := fun h => by omega
    rw [dif_pos h1, hT, dif_neg hn, dif_pos ⟨h1.1.1, h1.2.1⟩]
  · rw [dif_neg h1, scatter_window_set_apply wf z i0 T 0 0 h00 h01 (by omega) (by omega) k j]
    by_cases h0 : (0 ≤ k.val ∧ k.val < 0 + d) ∧ (0 ≤ j.val ∧ j.val < 0 + e)
    · have hp : k.val < d ∧ j.val < e := ⟨by omega, by omega⟩
      rw [dif_pos h0, hT, dif_pos hp]
      rfl
    · have hp : ¬ (k.val < d ∧ j.val < e) := fun h => h0 ⟨⟨by omega, by omega⟩, ⟨by omega, by omega⟩⟩
      have hq : ¬ (d ≤ k.val ∧ e ≤ j.val) := fun h => h1 ⟨⟨h.1, hk⟩, ⟨h.2, hj⟩⟩
      rw [dif_neg h0, hz, dif_neg hp, dif_neg hq]

/-! ## The seven layers

Each matrix is first written out as the host's operations applied to the weight argument: the run of the host
operations is unfolded, and every buffer read is replaced by the operation that last wrote it. -/

/-- Replaces a buffer read after an operation by that operation's value when it wrote the buffer, and by the read
    before the operation when it wrote another buffer, until no such read is left. -/
local macro "peel_results" : tactic =>
  `(tactic| repeat (first
       | rw [nullary_result] | rw [unary_result] | rw [binary_result]
       | (rw [nullary_result_ne]; rotate_left; decide)
       | (rw [unary_result_ne]; rotate_left; decide)
       | (rw [binary_result_ne]; rotate_left; decide)
       | (rw [ternary_result_ne]; rotate_left; decide)
       | (rw [reshape_result_ne]; rotate_left; decide)))

set_option maxHeartbeats 4000000 in
/-- Layer 1: the matrix `[256, 168]` the region finds is the block-diagonal matrix of the weight `[84, 128]`. -/
theorem wbd1 (k : Fin 256) (j : Fin 168) :
    (V m c main_v9 : S256x168.Idx → EReal) (ix2 k j)
      = Cert.Mlp.blockDiag (d := 128) (e := 84) (m ((c : Thread nD τ).loc main_arg1)) k j := by
  have hV : (V m c main_v9 : S256x168.Idx → EReal)
      = Host.scatter scatter_S256x168_S2_S128x84_01_n_01_0 (fun _ b => b)
          (Host.scatter scatter_S256x168_S2_S128x84_01_n_01_0 (fun _ b => b)
            (broadcastInDim S256x168 ![] bcast_S_S256x168 (constant (F := Ideal) S_ .f32 0x00000000#32))
            (corner 0#32 0#32) (transpose S128x84 [1, 0] (m ((c : Thread nD τ).loc main_arg1)) transposes_S84x128_S128x84_1_0))
          (corner 128#32 84#32) (transpose S128x84 [1, 0] (m ((c : Thread nD τ).loc main_arg1)) transposes_S84x128_S128x84_1_0) := by
    dsimp only [Gen.V, Gen.hostOps0]; after_results_simp; peel_results
  rw [hV]
  exact two_windows (d := 128) (e := 84) scatter_S256x168_S2_S128x84_01_n_01_0_wf (m ((c : Thread nD τ).loc main_arg1))
    _ (fun a b => zero_fill bcast_S_S256x168 (ix2 a b))
    _ (fun a b => Cert.MatOps.transpose10_apply _ transposes_S84x128_S128x84_1_0 a b)
    _ _ (by rw [corner_fst]; rfl) (by rw [corner_snd]; rfl) (by rw [corner_fst]; rfl) (by rw [corner_snd]; rfl) k j

set_option maxHeartbeats 4000000 in
/-- Layer 2: the matrix `[168, 84]` the region finds is the block-diagonal matrix of the weight `[42, 84]`. -/
theorem wbd2 (k : Fin 168) (j : Fin 84) :
    (V m c main_v21 : S168x84.Idx → EReal) (ix2 k j)
      = Cert.Mlp.blockDiag (d := 84) (e := 42) (m ((c : Thread nD τ).loc main_arg3)) k j := by
  have hV : (V m c main_v21 : S168x84.Idx → EReal)
      = Host.scatter scatter_S168x84_S2_S84x42_01_n_01_0 (fun _ b => b)
          (Host.scatter scatter_S168x84_S2_S84x42_01_n_01_0 (fun _ b => b)
            (broadcastInDim S168x84 ![] bcast_S_S168x84 (constant (F := Ideal) S_ .f32 0x00000000#32))
            (corner 0#32 0#32) (transpose S84x42 [1, 0] (m ((c : Thread nD τ).loc main_arg3)) transposes_S42x84_S84x42_1_0))
          (corner 84#32 42#32) (transpose S84x42 [1, 0] (m ((c : Thread nD τ).loc main_arg3)) transposes_S42x84_S84x42_1_0) := by
    dsimp only [Gen.V, Gen.hostOps0]; after_results_simp; peel_results
  rw [hV]
  exact two_windows (d := 84) (e := 42) scatter_S168x84_S2_S84x42_01_n_01_0_wf (m ((c : Thread nD τ).loc main_arg3))
    _ (fun a b => zero_fill bcast_S_S168x84 (ix2 a b))
    _ (fun a b => Cert.MatOps.transpose10_apply _ transposes_S42x84_S84x42_1_0 a b)
    _ _ (by rw [corner_fst]; rfl) (by rw [corner_snd]; rfl) (by rw [corner_fst]; rfl) (by rw [corner_snd]; rfl) k j

set_option maxHeartbeats 4000000 in
/-- Layer 3: the matrix `[84, 64]` the region finds is the block-diagonal matrix of the weight `[32, 42]`. -/
theorem wbd3 (k : Fin 84) (j : Fin 64) :
    (V m c main_v33 : S84x64.Idx → EReal) (ix2 k j)
      = Cert.Mlp.blockDiag (d := 42) (e := 32) (m ((c : Thread nD τ).loc main_arg5)) k j := by
  have hV : (V m c main_v33 : S84x64.Idx → EReal)
      = Host.scatter scatter_S84x64_S2_S42x32_01_n_01_0 (fun _ b => b)
          (Host.scatter scatter_S84x64_S2_S42x32_01_n_01_0 (fun _ b => b)
            (broadcastInDim S84x64 ![] bcast_S_S84x64 (constant (F := Ideal) S_ .f32 0x00000000#32))
            (corner 0#32 0#32) (transpose S42x32 [1, 0] (m ((c : Thread nD τ).loc main_arg5)) transposes_S32x42_S42x32_1_0))
          (corner 42#32 32#32) (transpose S42x32 [1, 0] (m ((c : Thread nD τ).loc main_arg5)) transposes_S32x42_S42x32_1_0) := by
    dsimp only [Gen.V, Gen.hostOps0]; after_results_simp; peel_results
  rw [hV]
  exact two_windows (d := 42) (e := 32) scatter_S84x64_S2_S42x32_01_n_01_0_wf (m ((c : Thread nD τ).loc main_arg5))
    _ (fun a b => zero_fill bcast_S_S84x64 (ix2 a b))
    _ (fun a b => Cert.MatOps.transpose10_apply _ transposes_S32x42_S42x32_1_0 a b)
    _ _ (by rw [corner_fst]; rfl) (by rw [corner_snd]; rfl) (by rw [corner_fst]; rfl) (by rw [corner_snd]; rfl) k j

set_option maxHeartbeats 4000000 in
/-- Layer 4: the matrix `[64, 32]` the region finds is the block-diagonal matrix of the weight `[16, 32]`. -/
theorem wbd4 (k : Fin 64) (j : Fin 32) :
    (V m c main_v45 : S64x32.Idx → EReal) (ix2 k j)
      = Cert.Mlp.blockDiag (d := 32) (e := 16) (m ((c : Thread nD τ).loc main_arg7)) k j := by
  have hV : (V m c main_v45 : S64x32.Idx → EReal)
      = Host.scatter scatter_S64x32_S2_S32x16_01_n_01_0 (fun _ b => b)
          (Host.scatter scatter_S64x32_S2_S32x16_01_n_01_0 (fun _ b => b)
            (broadcastInDim S64x32 ![] bcast_S_S64x32 (constant (F := Ideal) S_ .f32 0x00000000#32))
            (corner 0#32 0#32) (transpose S32x16 [1, 0] (m ((c : Thread nD τ).loc main_arg7)) transposes_S16x32_S32x16_1_0))
          (corner 32#32 16#32) (transpose S32x16 [1, 0] (m ((c : Thread nD τ).loc main_arg7)) transposes_S16x32_S32x16_1_0) := by
    dsimp only [Gen.V, Gen.hostOps0]; after_results_simp; peel_results
  rw [hV]
  exact two_windows (d := 32) (e := 16) scatter_S64x32_S2_S32x16_01_n_01_0_wf (m ((c : Thread nD τ).loc main_arg7))
    _ (fun a b => zero_fill bcast_S_S64x32 (ix2 a b))
    _ (fun a b => Cert.MatOps.transpose10_apply _ transposes_S16x32_S32x16_1_0 a b)
    _ _ (by rw [corner_fst]; rfl) (by rw [corner_snd]; rfl) (by rw [corner_fst]; rfl) (by rw [corner_snd]; rfl) k j

set_option maxHeartbeats 4000000 in
/-- Layer 5: the matrix `[32, 16]` the region finds is the block-diagonal matrix of the weight `[8, 16]`. -/
theorem wbd5 (k : Fin 32) (j : Fin 16) :
    (V m c main_v57 : S32x16.Idx → EReal) (ix2 k j)
      = Cert.Mlp.blockDiag (d := 16) (e := 8) (m ((c : Thread nD τ).loc main_arg9)) k j := by
  have hV : (V m c main_v57 : S32x16.Idx → EReal)
      = Host.scatter scatter_S32x16_S2_S16x8_01_n_01_0 (fun _ b => b)
          (Host.scatter scatter_S32x16_S2_S16x8_01_n_01_0 (fun _ b => b)
            (broadcastInDim S32x16 ![] bcast_S_S32x16 (constant (F := Ideal) S_ .f32 0x00000000#32))
            (corner 0#32 0#32) (transpose S16x8 [1, 0] (m ((c : Thread nD τ).loc main_arg9)) transposes_S8x16_S16x8_1_0))
          (corner 16#32 8#32) (transpose S16x8 [1, 0] (m ((c : Thread nD τ).loc main_arg9)) transposes_S8x16_S16x8_1_0) := by
    dsimp only [Gen.V, Gen.hostOps0]; after_results_simp; peel_results
  rw [hV]
  exact two_windows (d := 16) (e := 8) scatter_S32x16_S2_S16x8_01_n_01_0_wf (m ((c : Thread nD τ).loc main_arg9))
    _ (fun a b => zero_fill bcast_S_S32x16 (ix2 a b))
    _ (fun a b => Cert.MatOps.transpose10_apply _ transposes_S8x16_S16x8_1_0 a b)
    _ _ (by rw [corner_fst]; rfl) (by rw [corner_snd]; rfl) (by rw [corner_fst]; rfl) (by rw [corner_snd]; rfl) k j

set_option maxHeartbeats 4000000 in
/-- Layer 6: the matrix `[16, 8]` the region finds is the block-diagonal matrix of the weight `[4, 8]`. -/
theorem wbd6 (k : Fin 16) (j : Fin 8) :
    (V m c main_v69 : S16x8.Idx → EReal) (ix2 k j)
      = Cert.Mlp.blockDiag (d := 8) (e := 4) (m ((c : Thread nD τ).loc main_arg11)) k j := by
  have hV : (V m c main_v69 : S16x8.Idx → EReal)
      = Host.scatter scatter_S16x8_S2_S8x4_01_n_01_0 (fun _ b => b)
          (Host.scatter scatter_S16x8_S2_S8x4_01_n_01_0 (fun _ b => b)
            (broadcastInDim S16x8 ![] bcast_S_S16x8 (constant (F := Ideal) S_ .f32 0x00000000#32))
            (corner 0#32 0#32) (transpose S8x4 [1, 0] (m ((c : Thread nD τ).loc main_arg11)) transposes_S4x8_S8x4_1_0))
          (corner 8#32 4#32) (transpose S8x4 [1, 0] (m ((c : Thread nD τ).loc main_arg11)) transposes_S4x8_S8x4_1_0) := by
    dsimp only [Gen.V, Gen.hostOps0]; after_results_simp; peel_results
  rw [hV]
  exact two_windows (d := 8) (e := 4) scatter_S16x8_S2_S8x4_01_n_01_0_wf (m ((c : Thread nD τ).loc main_arg11))
    _ (fun a b => zero_fill bcast_S_S16x8 (ix2 a b))
    _ (fun a b => Cert.MatOps.transpose10_apply _ transposes_S4x8_S8x4_1_0 a b)
    _ _ (by rw [corner_fst]; rfl) (by rw [corner_snd]; rfl) (by rw [corner_fst]; rfl) (by rw [corner_snd]; rfl) k j

set_option maxHeartbeats 4000000 in
/-- Layer 7: the matrix `[8, 2]` the region finds is the block-diagonal matrix of the weight `[1, 4]`. -/
theorem wbd7 (k : Fin 8) (j : Fin 2) :
    (V m c main_v81 : S8x2.Idx → EReal) (ix2 k j)
      = Cert.Mlp.blockDiag (d := 4) (e := 1) (m ((c : Thread nD τ).loc main_arg13)) k j := by
  have hV : (V m c main_v81 : S8x2.Idx → EReal)
      = Host.scatter scatter_S8x2_S2_S4x1_01_n_01_0 (fun _ b => b)
          (Host.scatter scatter_S8x2_S2_S4x1_01_n_01_0 (fun _ b => b)
            (broadcastInDim S8x2 ![] bcast_S_S8x2 (constant (F := Ideal) S_ .f32 0x00000000#32))
            (corner 0#32 0#32) (transpose S4x1 [1, 0] (m ((c : Thread nD τ).loc main_arg13)) transposes_S1x4_S4x1_1_0))
          (corner 4#32 1#32) (transpose S4x1 [1, 0] (m ((c : Thread nD τ).loc main_arg13)) transposes_S1x4_S4x1_1_0) := by
    dsimp only [Gen.V, Gen.hostOps0]; after_results_simp; peel_results
  rw [hV]
  exact two_windows (d := 4) (e := 1) scatter_S8x2_S2_S4x1_01_n_01_0_wf (m ((c : Thread nD τ).loc main_arg13))
    _ (fun a b => zero_fill bcast_S_S8x2 (ix2 a b))
    _ (fun a b => Cert.MatOps.transpose10_apply _ transposes_S1x4_S4x1_1_0 a b)
    _ _ (by rw [corner_fst]; rfl) (by rw [corner_snd]; rfl) (by rw [corner_fst]; rfl) (by rw [corner_snd]; rfl) k j

end Cert.KernelIdeal.Windows

end
-- ==== Proof.WindowsB.lean ====
/-
  The seven repeated-bias rows, read at an entry.

  Before its one region the program builds, for each layer, a row `[1, e + e]` from the layer's bias `b` of `e`
  entries: `b` laid after itself along its one axis, then given a leading unit axis. Read at `(0, j)` that row is
  the specification's `pack` of the bias with itself: for `j < e` the leading unit axis falls away and the position
  lies in the first copy, at `j`; for `j ≥ e` it lies in the second copy, at `j - e`.

  One lemma, for any `e`, does the reading (`concat_self_row`). Each of the seven theorems first names what the
  region finds in the row's buffer — of all the host operations only the concatenation and the cast write to it or to
  what it is built from, and the bias is as launched — and then cites the lemma.
-/
import proofs.«175643_j62766652064010_2_alg».proof.Proof.Gen.KernelIdeal.Frame
import proofs.«175643_j62766652064010_2_alg».proof.Proof.Spec
import Idealize.ShloMosaic.Lib.Pipeline.Value
import Idealize.ShloMosaic.Lib.ValueLayout

-- the host operations form a list of 120; unfolding the fold over it recurses once per operation
set_option maxRecDepth 16384

noncomputable section

open Cert.KernelIdeal Cert.KernelIdeal.Gen Idealize.ShloMosaic Idealize.ShloMosaic.TcCoe Idealize.ShloMosaic.ValueIdx Idealize.SL.Sem

namespace Cert.KernelIdeal.Windows

/-- A vector of `e` entries laid after itself along its one axis and then given a leading unit axis reads, at
    `(0, j)`, the vector packed with itself at `j`: the first copy at `j` when `j < e`, the second at `j - e`
    otherwise. -/
theorem concat_self_row {e : Nat} (x : (⟨1, ![e]⟩ : Shape).Idx → EReal)
    (hc : Shape.Concatenates [(⟨1, ![e]⟩ : Shape), ⟨1, ![e]⟩] ⟨1, ![e + e]⟩ 0)
    (hs : (⟨1, ![e + e]⟩ : Shape).ShapeCasts ⟨2, ![1, e + e]⟩) (j : Fin (e + e)) :
    shapeCast ⟨2, ![1, e + e]⟩ (concatenate ⟨1, ![e + e]⟩ 0 [⟨⟨1, ![e]⟩, x⟩, ⟨⟨1, ![e]⟩, x⟩] hc) hs (ix2 (0 : Fin 1) j)
      = Cert.Mlp.pack (d := e) (fun j => x (ix1 j)) (fun j => x (ix1 j)) j := by
  -- the leading unit axis falls away
  rw [shapeCast_a_1a_apply]
  by_cases hj : j.val < e
  · -- a position below `e` lies in the first copy, at the same position
    rw [Cert.Mlp.pack_of_lt _ _ j hj]
    refine concatenate_pair_apply_left (0 : Fin 1) x x hc (ix1 j) rfl (ix1 ⟨j.val, hj⟩) ?_
    intro b
    match b with
    | ⟨0, _⟩ => rfl
  · -- a position from `e` on lies in the second copy, `e` earlier
    have hj' : e ≤ j.val := Nat.le_of_not_lt hj
    rw [Cert.Mlp.pack_of_ge _ _ j hj']
    refine concatenate_pair_apply_right (0 : Fin 1) x x hc (ix1 j) rfl rfl
      (ix1 ⟨j.val - e, by have := j.isLt; omega⟩) ?_ ?_
    · intro b hb
      match b, hb with
      | ⟨0, _⟩, hb => exact absurd rfl hb
    · show j.val - e + e = j.val
      omega

variable (m : (ℓ : Loc nD τ sig) → Buf (Elt Ideal) ℓ) (c : Dev nD)

-- a buffer's type is read off a table with one case per buffer, and reading entry `n` unfolds `n` cases: the later
-- rows' buffers (entries 99 and 116) need more than the default budget
set_option maxHeartbeats 1000000

/-- The first layer's bias row `[1, 168]`, as the region finds it, is the layer's bias of 84 entries packed with
    itself. -/
theorem bbd1 (j : Fin 168) :
    (V m c main_v11 : S1x168.Idx → EReal) (ix2 (0 : Fin 1) j)
      = Cert.Mlp.pack (d := 84) (fun j => (m ((c : Thread nD τ).loc main_arg2) : S84.Idx → EReal) (ix1 j))
          (fun j => (m ((c : Thread nD τ).loc main_arg2) : S84.Idx → EReal) (ix1 j)) j := by
  -- what the host operations leave in the row's buffer: the bias after itself, cast to one row
  have hV : (V m c main_v11 : S1x168.Idx → EReal)
      = shapeCast S1x168 (concatenate S168 0 [⟨S84, (m ((c : Thread nD τ).loc main_arg2) : S84.Idx → EReal)⟩,
          ⟨S84, (m ((c : Thread nD τ).loc main_arg2) : S84.Idx → EReal)⟩] concatenates_S84_S84_S168_d0) shapeCasts_S168_S1x168 := by
    dsimp only [Gen.V, Gen.hostOps0]
    after_results
    rfl
  rw [hV]
  exact concat_self_row (e := 84) (m ((c : Thread nD τ).loc main_arg2) : S84.Idx → EReal) concatenates_S84_S84_S168_d0 shapeCasts_S168_S1x168 j

/-- The second layer's bias row `[1, 84]`, as the region finds it, is the layer's bias of 42 entries packed with
    itself. -/
theorem bbd2 (j : Fin 84) :
    (V m c main_v23 : S1x84.Idx → EReal) (ix2 (0 : Fin 1) j)
      = Cert.Mlp.pack (d := 42) (fun j => (m ((c : Thread nD τ).loc main_arg4) : S42.Idx → EReal) (ix1 j))
          (fun j => (m ((c : Thread nD τ).loc main_arg4) : S42.Idx → EReal) (ix1 j)) j := by
  -- what the host operations leave in the row's buffer: the bias after itself, cast to one row
  have hV : (V m c main_v23 : S1x84.Idx → EReal)
      = shapeCast S1x84 (concatenate S84 0 [⟨S42, (m ((c : Thread nD τ).loc main_arg4) : S42.Idx → EReal)⟩,
          ⟨S42, (m ((c : Thread nD τ).loc main_arg4) : S42.Idx → EReal)⟩] concatenates_S42_S42_S84_d0) shapeCasts_S84_S1x84 := by
    dsimp only [Gen.V, Gen.hostOps0]
    after_results
    rfl
  rw [hV]
  exact concat_self_row (e := 42) (m ((c : Thread nD τ).loc main_arg4) : S42.Idx → EReal) concatenates_S42_S42_S84_d0 shapeCasts_S84_S1x84 j

/-- The third layer's bias row `[1, 64]`, as the region finds it, is the layer's bias of 32 entries packed with
    itself. -/
theorem bbd3 (j : Fin 64) :
    (V m c main_v35 : S1x64.Idx → EReal) (ix2 (0 : Fin 1) j)
      = Cert.Mlp.pack (d := 32) (fun j => (m ((c : Thread nD τ).loc main_arg6) : S32.Idx → EReal) (ix1 j))
          (fun j => (m ((c : Thread nD τ).loc main_arg6) : S32.Idx → EReal) (ix1 j)) j := by
  -- what the host operations leave in the row's buffer: the bias after itself, cast to one row
  have hV : (V m c main_v35 : S1x64.Idx → EReal)
      = shapeCast S1x64 (concatenate S64 0 [⟨S32, (m ((c : Thread nD τ).loc main_arg6) : S32.Idx → EReal)⟩,
          ⟨S32, (m ((c : Thread nD τ).loc main_arg6) : S32.Idx → EReal)⟩] concatenates_S32_S32_S64_d0) shapeCasts_S64_S1x64 := by
    dsimp only [Gen.V, Gen.hostOps0]
    after_results
    rfl
  rw [hV]
  exact concat_self_row (e := 32) (m ((c : Thread nD τ).loc main_arg6) : S32.Idx → EReal) concatenates_S32_S32_S64_d0 shapeCasts_S64_S1x64 j

/-- The fourth layer's bias row `[1, 32]`, as the region finds it, is the layer's bias of 16 entries packed with
    itself. -/
theorem bbd4 (j : Fin 32) :
    (V m c main_v47 : S1x32.Idx → EReal) (ix2 (0 : Fin 1) j)
      = Cert.Mlp.pack (d := 16) (fun j => (m ((c : Thread nD τ).loc main_arg8) : S16.Idx → EReal) (ix1 j))
          (fun j => (m ((c : Thread nD τ).loc main_arg8) : S16.Idx → EReal) (ix1 j)) j := by
  -- what the host operations leave in the row's buffer: the bias after itself, cast to one row
  have hV : (V m c main_v47 : S1x32.Idx → EReal)
      = shapeCast S1x32 (concatenate S32 0 [⟨S16, (m ((c : Thread nD τ).loc main_arg8) : S16.Idx → EReal)⟩,
          ⟨S16, (m ((c : Thread nD τ).loc main_arg8) : S16.Idx → EReal)⟩] concatenates_S16_S16_S32_d0) shapeCasts_S32_S1x32 := by
    dsimp only [Gen.V, Gen.hostOps0]
    after_results
    rfl
  rw [hV]
  exact concat_self_row (e := 16) (m ((c : Thread nD τ).loc main_arg8) : S16.Idx → EReal) concatenates_S16_S16_S32_d0 shapeCasts_S32_S1x32 j

/-- The fifth layer's bias row `[1, 16]`, as the region finds it, is the layer's bias of 8 entries packed with
    itself. -/
theorem bbd5 (j : Fin 16) :
    (V m c main_v59 : S1x16.Idx → EReal) (ix2 (0 : Fin 1) j)
      = Cert.Mlp.pack (d := 8) (fun j => (m ((c : Thread nD τ).loc main_arg10) : S8.Idx → EReal) (ix1 j))
          (fun j => (m ((c : Thread nD τ).loc main_arg10) : S8.Idx → EReal) (ix1 j)) j := by
  -- what the host operations leave in the row's buffer: the bias after itself, cast to one row
  have hV : (V m c main_v59 : S1x16.Idx → EReal)
      = shapeCast S1x16 (concatenate S16 0 [⟨S8, (m ((c : Thread nD τ).loc main_arg10) : S8.Idx → EReal)⟩,
          ⟨S8, (m ((c : Thread nD τ).loc main_arg10) : S8.Idx → EReal)⟩] concatenates_S8_S8_S16_d0) shapeCasts_S16_S1x16 := by
    dsimp only [Gen.V, Gen.hostOps0]
    after_results
    rfl
  rw [hV]
  exact concat_self_row (e := 8) (m ((c : Thread nD τ).loc main_arg10) : S8.Idx → EReal) concatenates_S8_S8_S16_d0 shapeCasts_S16_S1x16 j

/-- The sixth layer's bias row `[1, 8]`, as the region finds it, is the layer's bias of 4 entries packed with
    itself. -/
theorem bbd6 (j : Fin 8) :
    (V m c main_v71 : S1x8.Idx → EReal) (ix2 (0 : Fin 1) j)
      = Cert.Mlp.pack (d := 4) (fun j => (m ((c : Thread nD τ).loc main_arg12) : S4.Idx → EReal) (ix1 j))
          (fun j => (m ((c : Thread nD τ).loc main_arg12) : S4.Idx → EReal) (ix1 j)) j := by
  -- what the host operations leave in the row's buffer: the bias after itself, cast to one row
  have hV : (V m c main_v71 : S1x8.Idx → EReal)
      = shapeCast S1x8 (concatenate S8 0 [⟨S4, (m ((c : Thread nD τ).loc main_arg12) : S4.Idx → EReal)⟩,
          ⟨S4, (m ((c : Thread nD τ).loc main_arg12) : S4.Idx → EReal)⟩] concatenates_S4_S4_S8_d0) shapeCasts_S8_S1x8 := by
    dsimp only [Gen.V, Gen.hostOps0]
    after_results
    rfl
  rw [hV]
  exact concat_self_row (e := 4) (m ((c : Thread nD τ).loc main_arg12) : S4.Idx → EReal) concatenates_S4_S4_S8_d0 shapeCasts_S8_S1x8 j

/-- The seventh layer's bias row `[1, 2]`, as the region finds it, is the layer's bias of 1 entry packed with
    itself. -/
theorem bbd7 (j : Fin 2) :
    (V m c main_v83 : S1x2.Idx → EReal) (ix2 (0 : Fin 1) j)
      = Cert.Mlp.pack (d := 1) (fun j => (m ((c : Thread nD τ).loc main_arg14) : S1.Idx → EReal) (ix1 j))
          (fun j => (m ((c : Thread nD τ).loc main_arg14) : S1.Idx → EReal) (ix1 j)) j := by
  -- what the host operations leave in the row's buffer: the bias after itself, cast to one row
  have hV : (V m c main_v83 : S1x2.Idx → EReal)
      = shapeCast S1x2 (concatenate S2 0 [⟨S1, (m ((c : Thread nD τ).loc main_arg14) : S1.Idx → EReal)⟩,
          ⟨S1, (m ((c : Thread nD τ).loc main_arg14) : S1.Idx → EReal)⟩] concatenates_S1_S1_S2_d0) shapeCasts_S2_S1x2 := by
    dsimp only [Gen.V, Gen.hostOps0]
    after_results
    rfl
  rw [hV]
  exact concat_self_row (e := 1) (m ((c : Thread nD τ).loc main_arg14) : S1.Idx → EReal) concatenates_S1_S1_S2_d0 shapeCasts_S2_S1x2 j

end Cert.KernelIdeal.Windows

end
-- ==== Proof.KernelValue.lean ====
/-
  The kernel's result array after its run: the network applied to each row of the input.

  At grid point `t` the body computes, from the two half tiles and the parameter arrays, a `[4096, 2]` matrix whose
  row `r` holds the network of row `r` of the first half tile and of row `r` of the second; it stores column 0 into
  rows `0 … 4095` of the point's output block and column 1 into rows `4096 … 8191`. The parameter arrays the body
  finds are the block-diagonal weight matrices and the repeated-bias rows the host built from the arguments. So row
  `y0` of the block ends as the network of row `8192·t + y0` of the input, the point writes back block `t` of the
  result array, and the 64 blocks tile the array.
-/
import proofs.«175643_j62766652064010_2_alg».proof.Proof.Gen.KernelIdeal.Value
import proofs.«175643_j62766652064010_2_alg».proof.Proof.KernelBlocks
import proofs.«175643_j62766652064010_2_alg».proof.Proof.Payload
import proofs.«175643_j62766652064010_2_alg».proof.Proof.WindowsW
import proofs.«175643_j62766652064010_2_alg».proof.Proof.WindowsB
import proofs.«175643_j62766652064010_2_alg».proof.Proof.Spec

noncomputable section

namespace Cert.KernelIdeal.KValue

open Cert.KernelIdeal Cert.KernelIdeal.Gen Cert.KernelIdeal.Blocks Cert.KernelIdeal.Windows Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array both programs are proved to end with: the network of every input row. -/
abbrev Gk (c : Dev nD) : S524288x1.Idx → EReal := Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- Row `y0` of the output block reads the computed `[4096, 2]` matrix at row `y0 mod 4096`, column `y0 div 4096`:
    the first 4096 rows of the block take column 0, the last 4096 column 1. -/
theorem ix15_eq (y0 : Fin 8192) (y1 : Fin 1) :
    Value.ix15_0 (ix2 y0 y1) = ix2 (⟨y0.val % 4096, Nat.mod_lt _ (by omega)⟩ : Fin 4096)
      (⟨y0.val / 4096, by have := y0.isLt; omega⟩ : Fin (1 + 1)) := by
  funext a
  match a with
  | ⟨0, _⟩ => rfl
  | ⟨1, _⟩ => rfl

/-- What point `t` leaves at row `y0` of its output block is the network of row `8192·t + y0` of the input: the
    computed matrix holds in row `r` the network of rows `r` and `4096 + r` of the tile, and row `y0` of the block reads
    the one that is row `y0` of the tile. -/
theorem E15_eq (c : Dev nD) (t : Fin cfg0.N) (y0 : Fin 8192) (y1 : Fin 1) :
    Value.E15 (F := Ideal) (View.ld (iblk m c 0 t) r0_0) (View.ld (iblk m c 0 t) r0_1) (View.ld (iblk m c 1 t) r0_2) (View.ld (iblk m c 2 t) r0_3) (View.ld (iblk m c 3 t) r0_4) (View.ld (iblk m c 4 t) r0_5) (View.ld (iblk m c 5 t) r0_6) (View.ld (iblk m c 6 t) r0_7) (View.ld (iblk m c 7 t) r0_8) (View.ld (iblk m c 8 t) r0_9) (View.ld (iblk m c 9 t) r0_10) (View.ld (iblk m c 10 t) r0_11) (View.ld (iblk m c 11 t) r0_12) (View.ld (iblk m c 12 t) r0_13) (View.ld (iblk m c 13 t) r0_14) (View.ld (iblk m c 14 t) r0_15) (ix2 y0 y1)
      = Gk m c (ix2 (⟨8192 * t.val + y0.val, by have := t.isLt; have := y0.isLt; have h64 : cfg0.N = 64 := N_0; omega⟩ : Fin 524288) y1) := by
  show k0_pay2 (F := Ideal) (k0_pay1 (F := Ideal) _ _ _ _ _ _ _ _ _) _ _ _ _ _ _ _ (Value.ix15_0 (ix2 y0 y1)) = _
  rw [ix15_eq, ld_win1 m c t, ld_win2 m c t, ld_win3 m c t, ld_win4 m c t, ld_win5 m c t, ld_win6 m c t, ld_win7 m c t, ld_win8 m c t, ld_win9 m c t, ld_win10 m c t, ld_win11 m c t, ld_win12 m c t, ld_win13 m c t, ld_win14 m c t]
  rw [Cert.KernelIdeal.Payload.pay_apply (View.ld (iblk m c 0 t) r0_0) (View.ld (iblk m c 0 t) r0_1) (V m c main_v9 : S256x168.Idx → EReal) (V m c main_v11 : S1x168.Idx → EReal) (V m c main_v21 : S168x84.Idx → EReal) (V m c main_v23 : S1x84.Idx → EReal) (V m c main_v33 : S84x64.Idx → EReal) (V m c main_v35 : S1x64.Idx → EReal) (V m c main_v45 : S64x32.Idx → EReal) (V m c main_v47 : S1x32.Idx → EReal) (V m c main_v57 : S32x16.Idx → EReal) (V m c main_v59 : S1x16.Idx → EReal) (V m c main_v69 : S16x8.Idx → EReal) (V m c main_v71 : S1x8.Idx → EReal) (V m c main_v81 : S8x2.Idx → EReal) (V m c main_v83 : S1x2.Idx → EReal)
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (wbd1 m c) (bbd1 m c) (wbd2 m c) (bbd2 m c) (wbd3 m c) (bbd3 m c) (wbd4 m c) (bbd4 m c) (wbd5 m c) (bbd5 m c) (wbd6 m c) (bbd6 m c) (wbd7 m c) (bbd7 m c)]
  unfold Gk
  rw [Cert.Mlp.G_apply]
  by_cases h : y0.val < 4096
  · rw [Cert.Mlp.pack_of_lt _ _ _ (show y0.val / 4096 < 1 by omega)]
    congr 1
    · funext k
      rw [ld_x0 m c t]
      congr 2
      exact Fin.ext (by show 8192 * t.val + y0.val % 4096 = 8192 * t.val + y0.val; omega)
    · exact Subsingleton.elim _ _
  · rw [Cert.Mlp.pack_of_ge _ _ _ (show 1 ≤ y0.val / 4096 by omega)]
    congr 1
    · funext k
      rw [ld_x1 m c t]
      congr 2
      exact Fin.ext (by show 8192 * t.val + 4096 + y0.val % 4096 = 8192 * t.val + y0.val; have := y0.isLt; omega)
    · exact Subsingleton.elim _ _

/-- What the body leaves in point `t`'s output block: row `y` of the block is the network of row `8192·t + y`. -/
theorem out_eq (c : Dev nD) (t : Fin cfg0.N) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      = fun y : S8192x1.Idx => Gk m c (ix2 (⟨8192 * t.val + (y 0).val, by
          have := t.isLt; have : (y 0).val < 8192 := (y 0).isLt; have h64 : cfg0.N = 64 := N_0; omega⟩ : Fin 524288)
          (⟨(y 1).val, (y 1).isLt⟩ : Fin 1)) := by
  unfold out0_15
  funext y
  obtain ⟨y0, y1, rfl⟩ : ∃ (y0 : Fin 8192) (y1 : Fin 1), y = ix2 y0 y1 := ⟨y 0, y 1, eq_ix2 y⟩
  rw [Value.canon15_eq]
  exact E15_eq m c t y0 y1

/-- What point `t` writes back is block `t` of the result array. -/
theorem flushed_eq (c : Dev nD) (t : Fin cfg0.N) :
    (dats m 0 c).flushed 15 t = ((cfg0.win 15).blk t).view.read (Elt Ideal) (Gk m c) := by
  rw [Value.flushed15, out_eq m c t]
  obtain ⟨e0, e1, -, -⟩ := idx_io t
  funext j
  show Gk m c (ix2 (⟨8192 * t.val + (j 0).val, _⟩ : Fin 524288) (⟨(j 1).val, _⟩ : Fin 1))
    = Gk m c (((cfg0.win 15).blk t).view.emb j)
  congr 1
  funext a; apply Fin.ext
  match a with
  | ⟨0, _⟩ => show 8192 * t.val + (j 0).val = win0_15.index t (0 : Fin 2) * 8192 + 1 * (j 0).val; omega
  | ⟨1, _⟩ => show (j 1).val = win0_15.index t (1 : Fin 2) * 1 + 1 * (j 1).val; omega

/-- An index of the result array is in point `t`'s block iff each coordinate is in the block's range on its axis. -/
theorem mem_blk (t : Fin cfg0.N) (i : S524288x1.Idx) :
    i ∈ ((cfg0.win 15).blk t).view.set ↔ ∀ a : Fin 2, win0_15.index t a * S8192x1.size a ≤ (i a).val
      ∧ (i a).val < win0_15.index t a * S8192x1.size a + S8192x1.size a := by
  show i ∈ ((View.whole main_v84).slice (win0_15.rect t)).set ↔ _
  rw [View.set_slice_whole, Rect.mem_set_unit]
  exact Iff.rfl

/-- The 64 blocks of 8192 rows tile the 524288 rows: row `p` is in the block of point `p div 8192`. -/
theorem cover (i : S524288x1.Idx) :
    ∃ t : Fin cfg0.N, (cfg0.win 15).flush t = true ∧ i ∈ ((cfg0.win 15).blk t).view.set := by
  have hi0 : (i 0).val < 524288 := (i 0).isLt
  have hi1 : (i 1).val < 1 := (i 1).isLt
  have h64 : cfg0.N = 64 := N_0
  refine ⟨⟨(i 0).val / 8192, by omega⟩, flush0_15 _, ?_⟩
  rw [mem_blk]
  obtain ⟨e0, e1, -, -⟩ := idx_io ⟨(i 0).val / 8192, by omega⟩
  intro a
  match a with
  | ⟨0, _⟩ =>
    show win0_15.index ⟨(i 0).val / 8192, _⟩ (0 : Fin 2) * 8192 ≤ (i 0).val
      ∧ (i 0).val < win0_15.index ⟨(i 0).val / 8192, _⟩ (0 : Fin 2) * 8192 + 8192
    rw [e0]; show (i 0).val / 8192 * 8192 ≤ (i 0).val ∧ (i 0).val < (i 0).val / 8192 * 8192 + 8192; omega
  | ⟨1, _⟩ =>
    show win0_15.index ⟨(i 0).val / 8192, _⟩ (1 : Fin 2) * 1 ≤ (i 1).val
      ∧ (i 1).val < win0_15.index ⟨(i 0).val / 8192, _⟩ (1 : Fin 2) * 1 + 1
    rw [e1]; omega

/-- The result array after the run is the network of every input row. -/
theorem final (c : Dev nD) : (dats m 0 c).arrAt 15 cfg0.N = Gk m c :=
  (dats m 0 c).arrAt_eq_of_cover 15 (Gk m c) (fun t _ => flushed_eq m c t) (cover)

/-- Every weakly fair execution of the kernel's program ends with the result array holding the network of every input
    row, and the arguments unchanged. -/
theorem run : θ_run defs (onTc (τ := τ) (main (F := Ideal))) ⟨m, fun _ => 0, ρ⟩ fun r => ∀ c : Dev nD,
      r.2.mem ((c : Thread nD τ).loc main_v84) = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.KValue

end
-- ==== Proof.RefValue.lean ====
/-
  The reference program computes the seven-layer network of the specification.

  The reference is a chain of host operations on whole arrays. Per layer: the weight array `[out, in]` is transposed to
  `[in, out]`; the previous activations `[rows, in]` are contracted with it over the shared axis; the bias `[out]` is
  broadcast first to `[1, out]`, then to `[rows, out]`, and added; and, for the first six layers, the pointwise maximum
  with an array filled with the zero constant is taken. Read at a row `p` and a column `j`, the contraction is
  `∑ k, a(p, k) · Wᵀ(k, j) = ∑ k, a(p, k) · W(j, k)`, the broadcast bias is `b j`, and the zero constant is the extended real
  `0`; so the element is `max ((∑ k, a(p, k) · W(j, k)) + b j) 0`, one dense layer of the specification followed by its clamp.

  Each layer's lemma reads the imported stage at explicit coordinates `(p, j)`, identifies the composed index maps of the
  transpose, the contraction and the two broadcasts with the plain coordinate pairs, and uses the previous layer's lemma
  under the sum. The seven lemmas chain to the final stage, which is the specification's array entry by entry.
-/
import proofs.«175643_j62766652064010_2_alg».proof.Proof.Gen.ReferenceIdeal.Read
import proofs.«175643_j62766652064010_2_alg».proof.Proof.Spec

open scoped BigOperators

noncomputable section

namespace Cert.ReferenceIdeal.RefValue

open Cert.ReferenceIdeal Cert.ReferenceIdeal.Read Idealize.ShloMosaic Idealize.ShloMosaic.ValueIdx

/-- Two rank-2 indices with equal coordinates are equal. -/
theorem idx2_ext {n0 n1 : Nat} (u v : (⟨2, ![n0, n1]⟩ : Shape).Idx) (h0 : u 0 = v 0) (h1 : u 1 = v 1) : u = v := by
  funext a
  match a with
  | ⟨0, _⟩ => exact h0
  | ⟨1, _⟩ => exact h1

/-- Two rank-1 indices with equal coordinate are equal. -/
theorem idx1_ext {n : Nat} (u v : (⟨1, ![n]⟩ : Shape).Idx) (h0 : u 0 = v 0) : u = v := by
  funext a
  match a with
  | ⟨0, _⟩ => exact h0

/-- The all-zero 32-bit word, read as an ideal float, is the extended real `0`. -/
theorem zero_word : FloatOps.ofBits (F := Ideal) .f32 0x00000000#32 = (0 : EReal) := by
  rw [Ideal.ofBits_def, Ideal.ofBits_zero_f32]

/-- The stage after the first clamp, at row `p`, column `j`: the first layer applied to row `p` of the input. The
    transposed weight read at `(k, j)` is the weight at `(j, k)`; the bias, broadcast along the rows, is read at `j`;
    the clamp's second operand is the zero constant everywhere. -/
theorem layer1
    (x0 : (⟨S524288x128, .f32⟩ : BufTy).Contents (Elt Ideal)) (x1 : (⟨S84x128, .f32⟩ : BufTy).Contents (Elt Ideal))
    (x2 : (⟨S84, .f32⟩ : BufTy).Contents (Elt Ideal))
    (p : Fin 524288) (j : Fin 84) :
    val_main_v5 (F := Ideal) x0 x1 x2 (ix2 p j)
      = (Cert.Mlp.relu (Cert.Mlp.lin x1 x2 (fun k => x0 (ix2 p k)))) j := by
  rw [val_main_v5_apply, val_main_v4_apply, val_main_v1_apply, val_main_v3_apply, val_main_v2_apply,
    val_main_call0_v0_apply, val_main_call0_cst_apply, zero_word]
  have hs : ∀ k : Fin 128, x0 (lidx_main_v1 (ix2 p j) k)
        * val_main_v0 (F := Ideal) x1 (ridx_main_v1 (ix2 p j) k)
      = x0 (ix2 p k) * x1 (ix2 j k) := by
    intro k
    rw [val_main_v0_apply, idx2_ext (lidx_main_v1 (ix2 p j) k) (ix2 p k) rfl rfl,
      idx2_ext (idx_main_v0 (ridx_main_v1 (ix2 p j) k)) (ix2 j k) rfl rfl]
  rw [Finset.sum_congr rfl fun k _ => hs k, idx1_ext (idx_main_v2 (idx_main_v3 (ix2 p j))) (ix1 j) rfl]
  rfl

/-- The stage after the second clamp, at row `p`, column `j`: the second layer applied to the first layer's
    activations of row `p` (the previous stage is read at `(p, k)` under the sum). -/
theorem layer2
    (x0 : (⟨S524288x128, .f32⟩ : BufTy).Contents (Elt Ideal)) (x1 : (⟨S84x128, .f32⟩ : BufTy).Contents (Elt Ideal))
    (x2 : (⟨S84, .f32⟩ : BufTy).Contents (Elt Ideal)) (x3 : (⟨S42x84, .f32⟩ : BufTy).Contents (Elt Ideal))
    (x4 : (⟨S42, .f32⟩ : BufTy).Contents (Elt Ideal))
    (p : Fin 524288) (j : Fin 42) :
    val_main_v11 (F := Ideal) x0 x1 x2 x3 x4 (ix2 p j)
      = (Cert.Mlp.relu (Cert.Mlp.lin x3 x4 (Cert.Mlp.relu (Cert.Mlp.lin x1 x2 (fun k => x0 (ix2 p k)))))) j := by
  rw [val_main_v11_apply, val_main_v10_apply, val_main_v7_apply, val_main_v9_apply, val_main_v8_apply,
    val_main_call1_v0_apply, val_main_call1_cst_apply, zero_word]
  have hs : ∀ k : Fin 84, val_main_v5 (F := Ideal) x0 x1 x2 (lidx_main_v7 (ix2 p j) k)
        * val_main_v6 (F := Ideal) x3 (ridx_main_v7 (ix2 p j) k)
      = (Cert.Mlp.relu (Cert.Mlp.lin x1 x2 (fun k => x0 (ix2 p k)))) k * x3 (ix2 j k) := by
    intro k
    rw [val_main_v6_apply, idx2_ext (lidx_main_v7 (ix2 p j) k) (ix2 p k) rfl rfl,
      idx2_ext (idx_main_v6 (ridx_main_v7 (ix2 p j) k)) (ix2 j k) rfl rfl, layer1]
  rw [Finset.sum_congr rfl fun k _ => hs k, idx1_ext (idx_main_v8 (idx_main_v9 (ix2 p j))) (ix1 j) rfl]
  rfl

/-- The stage after the third clamp, at row `p`, column `j`: the third layer applied to the second layer's
    activations of row `p` (the previous stage is read at `(p, k)` under the sum). -/
theorem layer3
    (x0 : (⟨S524288x128, .f32⟩ : BufTy).Contents (Elt Ideal)) (x1 : (⟨S84x128, .f32⟩ : BufTy).Contents (Elt Ideal))
    (x2 : (⟨S84, .f32⟩ : BufTy).Contents (Elt Ideal)) (x3 : (⟨S42x84, .f32⟩ : BufTy).Contents (Elt Ideal))
    (x4 : (⟨S42, .f32⟩ : BufTy).Contents (Elt Ideal)) (x5 : (⟨S32x42, .f32⟩ : BufTy).Contents (Elt Ideal))
    (x6 : (⟨S32, .f32⟩ : BufTy).Contents (Elt Ideal))
    (p : Fin 524288) (j : Fin 32) :
    val_main_v17 (F := Ideal) x0 x1 x2 x3 x4 x5 x6 (ix2 p j)
      = (Cert.Mlp.relu (Cert.Mlp.lin x5 x6 (Cert.Mlp.relu (Cert.Mlp.lin x3 x4 (Cert.Mlp.relu (Cert.Mlp.lin x1 x2 (fun k => x0 (ix2 p k)))))))) j := by
  rw [val_main_v17_apply, val_main_v16_apply, val_main_v13_apply, val_main_v15_apply, val_main_v14_apply,
    val_main_call2_v0_apply, val_main_call2_cst_apply, zero_word]
  have hs : ∀ k : Fin 42, val_main_v11 (F := Ideal) x0 x1 x2 x3 x4 (lidx_main_v13 (ix2 p j) k)
        * val_main_v12 (F := Ideal) x5 (ridx_main_v13 (ix2 p j) k)
      = (Cert.Mlp.relu (Cert.Mlp.lin x3 x4 (Cert.Mlp.relu (Cert.Mlp.lin x1 x2 (fun k => x0 (ix2 p k)))))) k * x5 (ix2 j k) := by
    intro k
    rw [val_main_v12_apply, idx2_ext (lidx_main_v13 (ix2 p j) k) (ix2 p k) rfl rfl,
      idx2_ext (idx_main_v12 (ridx_main_v13 (ix2 p j) k)) (ix2 j k) rfl rfl, layer2]
  rw [Finset.sum_congr rfl fun k _ => hs k, idx1_ext (idx_main_v14 (idx_main_v15 (ix2 p j))) (ix1 j) rfl]
  rfl

/-- The stage after the fourth clamp, at row `p`, column `j`: the fourth layer applied to the third layer's
    activations of row `p` (the previous stage is read at `(p, k)` under the sum). -/
theorem layer4
    (x0 : (⟨S524288x128, .f32⟩ : BufTy).Contents (Elt Ideal)) (x1 : (⟨S84x128, .f32⟩ : BufTy).Contents (Elt Ideal))
    (x2 : (⟨S84, .f32⟩ : BufTy).Contents (Elt Ideal)) (x3 : (⟨S42x84, .f32⟩ : BufTy).Contents (Elt Ideal))
    (x4 : (⟨S42, .f32⟩ : BufTy).Contents (Elt Ideal)) (x5 : (⟨S32x42, .f32⟩ : BufTy).Contents (Elt Ideal))
    (x6 : (⟨S32, .f32⟩ : BufTy).Contents (Elt Ideal)) (x7 : (⟨S16x32, .f32⟩ : BufTy).Contents (Elt Ideal))
    (x8 : (⟨S16, .f32⟩ : BufTy).Contents (Elt Ideal))
    (p : Fin 524288) (j : Fin 16) :
    val_main_v23 (F := Ideal) x0 x1 x2 x3 x4 x5 x6 x7 x8 (ix2 p j)
      = (Cert.Mlp.relu (Cert.Mlp.lin x7 x8 (Cert.Mlp.relu (Cert.Mlp.lin x5 x6 (Cert.Mlp.relu (Cert.Mlp.lin x3 x4 (Cert.Mlp.relu (Cert.Mlp.lin x1 x2 (fun k => x0 (ix2 p k)))))))))) j := by
  rw [val_main_v23_apply, val_main_v22_apply, val_main_v19_apply, val_main_v21_apply, val_main_v20_apply,
    val_main_call3_v0_apply, val_main_call3_cst_apply, zero_word]
  have hs : ∀ k : Fin 32, val_main_v17 (F := Ideal) x0 x1 x2 x3 x4 x5 x6 (lidx_main_v19 (ix2 p j) k)
        * val_main_v18 (F := Ideal) x7 (ridx_main_v19 (ix2 p j) k)
      = (Cert.Mlp.relu (Cert.Mlp.lin x5 x6 (Cert.Mlp.relu (Cert.Mlp.lin x3 x4 (Cert.Mlp.relu (Cert.Mlp.lin x1 x2 (fun k => x0 (ix2 p k)))))))) k * x7 (ix2 j k) := by
    intro k
    rw [val_main_v18_apply, idx2_ext (lidx_main_v19 (ix2 p j) k) (ix2 p k) rfl rfl,
      idx2_ext (idx_main_v18 (ridx_main_v19 (ix2 p j) k)) (ix2 j k) rfl rfl, layer3]
  rw [Finset.sum_congr rfl fun k _ => hs k, idx1_ext (idx_main_v20 (idx_main_v21 (ix2 p j))) (ix1 j) rfl]
  rfl

/-- The stage after the fifth clamp, at row `p`, column `j`: the fifth layer applied to the fourth layer's
    activations of row `p` (the previous stage is read at `(p, k)` under the sum). -/
theorem layer5
    (x0 : (⟨S524288x128, .f32⟩ : BufTy).Contents (Elt Ideal)) (x1 : (⟨S84x128, .f32⟩ : BufTy).Contents (Elt Ideal))
    (x2 : (⟨S84, .f32⟩ : BufTy).Contents (Elt Ideal)) (x3 : (⟨S42x84, .f32⟩ : BufTy).Contents (Elt Ideal))
    (x4 : (⟨S42, .f32⟩ : BufTy).Contents (Elt Ideal)) (x5 : (⟨S32x42, .f32⟩ : BufTy).Contents (Elt Ideal))
    (x6 : (⟨S32, .f32⟩ : BufTy).Contents (Elt Ideal)) (x7 : (⟨S16x32, .f32⟩ : BufTy).Contents (Elt Ideal))
    (x8 : (⟨S16, .f32⟩ : BufTy).Contents (Elt Ideal)) (x9 : (⟨S8x16, .f32⟩ : BufTy).Contents (Elt Ideal))
    (x10 : (⟨S8, .f32⟩ : BufTy).Contents (Elt Ideal))
    (p : Fin 524288) (j : Fin 8) :
    val_main_v29 (F := Ideal) x0 x1 x2 x3 x4 x5 x6 x7 x8 x9 x10 (ix2 p j)
      = (Cert.Mlp.relu (Cert.Mlp.lin x9 x10 (Cert.Mlp.relu (Cert.Mlp.lin x7 x8 (Cert.Mlp.relu (Cert.Mlp.lin x5 x6 (Cert.Mlp.relu (Cert.Mlp.lin x3 x4 (Cert.Mlp.relu (Cert.Mlp.lin x1 x2 (fun k => x0 (ix2 p k)))))))))))) j := by
  rw [val_main_v29_apply, val_main_v28_apply, val_main_v25_apply, val_main_v27_apply, val_main_v26_apply,
    val_main_call4_v0_apply, val_main_call4_cst_apply, zero_word]
  have hs : ∀ k : Fin 16, val_main_v23 (F := Ideal) x0 x1 x2 x3 x4 x5 x6 x7 x8 (lidx_main_v25 (ix2 p j) k)
        * val_main_v24 (F := Ideal) x9 (ridx_main_v25 (ix2 p j) k)
      = (Cert.Mlp.relu (Cert.Mlp.lin x7 x8 (Cert.Mlp.relu (Cert.Mlp.lin x5 x6 (Cert.Mlp.relu (Cert.Mlp.lin x3 x4 (Cert.Mlp.relu (Cert.Mlp.lin x1 x2 (fun k => x0 (ix2 p k)))))))))) k * x9 (ix2 j k) := by
    intro k
    rw [val_main_v24_apply, idx2_ext (lidx_main_v25 (ix2 p j) k) (ix2 p k) rfl rfl,
      idx2_ext (idx_main_v24 (ridx_main_v25 (ix2 p j) k)) (ix2 j k) rfl rfl, layer4]
  rw [Finset.sum_congr rfl fun k _ => hs k, idx1_ext (idx_main_v26 (idx_main_v27 (ix2 p j))) (ix1 j) rfl]
  rfl

/-- The stage after the sixth clamp, at row `p`, column `j`: the sixth layer applied to the fifth layer's
    activations of row `p` (the previous stage is read at `(p, k)` under the sum). -/
theorem layer6
    (x0 : (⟨S524288x128, .f32⟩ : BufTy).Contents (Elt Ideal)) (x1 : (⟨S84x128, .f32⟩ : BufTy).Contents (Elt Ideal))
    (x2 : (⟨S84, .f32⟩ : BufTy).Contents (Elt Ideal)) (x3 : (⟨S42x84, .f32⟩ : BufTy).Contents (Elt Ideal))
    (x4 : (⟨S42, .f32⟩ : BufTy).Contents (Elt Ideal)) (x5 : (⟨S32x42, .f32⟩ : BufTy).Contents (Elt Ideal))
    (x6 : (⟨S32, .f32⟩ : BufTy).Contents (Elt Ideal)) (x7 : (⟨S16x32, .f32⟩ : BufTy).Contents (Elt Ideal))
    (x8 : (⟨S16, .f32⟩ : BufTy).Contents (Elt Ideal)) (x9 : (⟨S8x16, .f32⟩ : BufTy).Contents (Elt Ideal))
    (x10 : (⟨S8, .f32⟩ : BufTy).Contents (Elt Ideal)) (x11 : (⟨S4x8, .f32⟩ : BufTy).Contents (Elt Ideal))
    (x12 : (⟨S4, .f32⟩ : BufTy).Contents (Elt Ideal))
    (p : Fin 524288) (j : Fin 4) :
    val_main_v35 (F := Ideal) x0 x1 x2 x3 x4 x5 x6 x7 x8 x9 x10 x11 x12 (ix2 p j)
      = (Cert.Mlp.relu (Cert.Mlp.lin x11 x12 (Cert.Mlp.relu (Cert.Mlp.lin x9 x10 (Cert.Mlp.relu (Cert.Mlp.lin x7 x8 (Cert.Mlp.relu (Cert.Mlp.lin x5 x6 (Cert.Mlp.relu (Cert.Mlp.lin x3 x4 (Cert.Mlp.relu (Cert.Mlp.lin x1 x2 (fun k => x0 (ix2 p k)))))))))))))) j := by
  rw [val_main_v35_apply, val_main_v34_apply, val_main_v31_apply, val_main_v33_apply, val_main_v32_apply,
    val_main_call5_v0_apply, val_main_call5_cst_apply, zero_word]
  have hs : ∀ k : Fin 8, val_main_v29 (F := Ideal) x0 x1 x2 x3 x4 x5 x6 x7 x8 x9 x10 (lidx_main_v31 (ix2 p j) k)
        * val_main_v30 (F := Ideal) x11 (ridx_main_v31 (ix2 p j) k)
      = (Cert.Mlp.relu (Cert.Mlp.lin x9 x10 (Cert.Mlp.relu (Cert.Mlp.lin x7 x8 (Cert.Mlp.relu (Cert.Mlp.lin x5 x6 (Cert.Mlp.relu (Cert.Mlp.lin x3 x4 (Cert.Mlp.relu (Cert.Mlp.lin x1 x2 (fun k => x0 (ix2 p k)))))))))))) k * x11 (ix2 j k) := by
    intro k
    rw [val_main_v30_apply, idx2_ext (lidx_main_v31 (ix2 p j) k) (ix2 p k) rfl rfl,
      idx2_ext (idx_main_v30 (ridx_main_v31 (ix2 p j) k)) (ix2 j k) rfl rfl, layer5]
  rw [Finset.sum_congr rfl fun k _ => hs k, idx1_ext (idx_main_v32 (idx_main_v33 (ix2 p j))) (ix1 j) rfl]
  rfl

/-- The result stage at row `p`, column `j`: the seventh layer (no clamp) applied to the sixth layer's activations of
    that row. The bias is broadcast along both axes of extent one, so its only entry is read whatever `j` is. -/
theorem layer7
    (x0 : (⟨S524288x128, .f32⟩ : BufTy).Contents (Elt Ideal)) (x1 : (⟨S84x128, .f32⟩ : BufTy).Contents (Elt Ideal))
    (x2 : (⟨S84, .f32⟩ : BufTy).Contents (Elt Ideal)) (x3 : (⟨S42x84, .f32⟩ : BufTy).Contents (Elt Ideal))
    (x4 : (⟨S42, .f32⟩ : BufTy).Contents (Elt Ideal)) (x5 : (⟨S32x42, .f32⟩ : BufTy).Contents (Elt Ideal))
    (x6 : (⟨S32, .f32⟩ : BufTy).Contents (Elt Ideal)) (x7 : (⟨S16x32, .f32⟩ : BufTy).Contents (Elt Ideal))
    (x8 : (⟨S16, .f32⟩ : BufTy).Contents (Elt Ideal)) (x9 : (⟨S8x16, .f32⟩ : BufTy).Contents (Elt Ideal))
    (x10 : (⟨S8, .f32⟩ : BufTy).Contents (Elt Ideal)) (x11 : (⟨S4x8, .f32⟩ : BufTy).Contents (Elt Ideal))
    (x12 : (⟨S4, .f32⟩ : BufTy).Contents (Elt Ideal)) (x13 : (⟨S1x4, .f32⟩ : BufTy).Contents (Elt Ideal))
    (x14 : (⟨S1, .f32⟩ : BufTy).Contents (Elt Ideal))
    (p : Fin 524288) (j : Fin 1) :
    val_main_v40 (F := Ideal) x0 x1 x2 x3 x4 x5 x6 x7 x8 x9 x10 x11 x12 x13 x14 (ix2 p j)
      = (Cert.Mlp.lin x13 x14 (Cert.Mlp.relu (Cert.Mlp.lin x11 x12 (Cert.Mlp.relu (Cert.Mlp.lin x9 x10 (Cert.Mlp.relu (Cert.Mlp.lin x7 x8 (Cert.Mlp.relu (Cert.Mlp.lin x5 x6 (Cert.Mlp.relu (Cert.Mlp.lin x3 x4 (Cert.Mlp.relu (Cert.Mlp.lin x1 x2 (fun k => x0 (ix2 p k))))))))))))))) j := by
  rw [val_main_v40_apply, val_main_v37_apply, val_main_v39_apply, val_main_v38_apply]
  have hs : ∀ k : Fin 4, val_main_v35 (F := Ideal) x0 x1 x2 x3 x4 x5 x6 x7 x8 x9 x10 x11 x12 (lidx_main_v37 (ix2 p j) k)
        * val_main_v36 (F := Ideal) x13 (ridx_main_v37 (ix2 p j) k)
      = (Cert.Mlp.relu (Cert.Mlp.lin x11 x12 (Cert.Mlp.relu (Cert.Mlp.lin x9 x10 (Cert.Mlp.relu (Cert.Mlp.lin x7 x8 (Cert.Mlp.relu (Cert.Mlp.lin x5 x6 (Cert.Mlp.relu (Cert.Mlp.lin x3 x4 (Cert.Mlp.relu (Cert.Mlp.lin x1 x2 (fun k => x0 (ix2 p k)))))))))))))) k * x13 (ix2 j k) := by
    intro k
    rw [val_main_v36_apply, idx2_ext (lidx_main_v37 (ix2 p j) k) (ix2 p k) rfl rfl,
      idx2_ext (idx_main_v36 (ridx_main_v37 (ix2 p j) k)) (ix2 j k) rfl rfl, layer6]
  rw [Finset.sum_congr rfl fun k _ => hs k, idx1_ext (idx_main_v38 (idx_main_v39 (ix2 p j))) (ix1 j) (Fin.ext (show (0 : Nat) = j.val by have := j.isLt; omega))]
  rfl

/-- The reference's result is the specification: entry `(p, q)` of the last stage is the network applied to row `p` of
    the input, read at its single output `q`. -/
theorem ref_eq
    (x0 : (⟨S524288x128, .f32⟩ : BufTy).Contents (Elt Ideal)) (x1 : (⟨S84x128, .f32⟩ : BufTy).Contents (Elt Ideal))
    (x2 : (⟨S84, .f32⟩ : BufTy).Contents (Elt Ideal)) (x3 : (⟨S42x84, .f32⟩ : BufTy).Contents (Elt Ideal))
    (x4 : (⟨S42, .f32⟩ : BufTy).Contents (Elt Ideal)) (x5 : (⟨S32x42, .f32⟩ : BufTy).Contents (Elt Ideal))
    (x6 : (⟨S32, .f32⟩ : BufTy).Contents (Elt Ideal)) (x7 : (⟨S16x32, .f32⟩ : BufTy).Contents (Elt Ideal))
    (x8 : (⟨S16, .f32⟩ : BufTy).Contents (Elt Ideal)) (x9 : (⟨S8x16, .f32⟩ : BufTy).Contents (Elt Ideal))
    (x10 : (⟨S8, .f32⟩ : BufTy).Contents (Elt Ideal)) (x11 : (⟨S4x8, .f32⟩ : BufTy).Contents (Elt Ideal))
    (x12 : (⟨S4, .f32⟩ : BufTy).Contents (Elt Ideal)) (x13 : (⟨S1x4, .f32⟩ : BufTy).Contents (Elt Ideal))
    (x14 : (⟨S1, .f32⟩ : BufTy).Contents (Elt Ideal)) :
    val_main_v40 (F := Ideal) x0 x1 x2 x3 x4 x5 x6 x7 x8 x9 x10 x11 x12 x13 x14
      = Cert.Mlp.G x0 x1 x2 x3 x4 x5 x6 x7 x8 x9 x10 x11 x12 x13 x14 := by
  funext i
  obtain ⟨p, q, rfl⟩ : ∃ (p : Fin 524288) (q : Fin 1), i = ix2 p q := ⟨i 0, i 1, eq_ix2 i⟩
  rw [Cert.Mlp.G_apply]
  exact layer7 x0 x1 x2 x3 x4 x5 x6 x7 x8 x9 x10 x11 x12 x13 x14 p q

end Cert.ReferenceIdeal.RefValue

end
-- ==== Proof.lean ====
/-
  The kernel and the reference compute one function: a seven-layer dense network, row by row.

  The network. The input is an array of 524288 rows of 128 numbers. A dense layer with weights `W` (stored
  `[out, in]`) and bias `b` takes a row `a` to the row `j ↦ (∑ k, a k · W(j, k)) + b j`; the seven layers have widths
  128 → 84 → 42 → 32 → 16 → 8 → 4 → 1, and each of the first six is followed by the clamp `v ↦ max v 0`. The result
  is an array of 524288 rows of one number: row `p` of the input through the seven layers (`Cert.Mlp.G`, in the
  specification module). At the ideal instance a number is an extended real and sum, product and maximum are
  the extended reals' own, so both programs are compared as exact functions of their fifteen argument arrays.

  The reference forms, per layer, the transposed weights, the contraction of the previous activations with them,
  the bias broadcast over the rows, their sum and (for six layers) the maximum with an array of zeros. Read at a row
  and a column this is the layer's formula literally; the reference module proves that its last stage is `G`.

  The kernel walks over the rows in 64 tiles of 8192. In a tile it lays row `r` and row `4096 + r` side by side
  (a row of 256 numbers, `r < 4096`) and multiplies by a matrix holding the transposed weights twice, as the two
  diagonal blocks, with every entry outside those blocks an exact zero; the bias is repeated twice. A column in the
  first half of the product then meets, in the second half of the sum, only zero entries, and a column in the
  second half likewise in the first half of the sum. On the extended reals a product with zero is zero whatever the
  other factor is, infinite or not, so each half of the packed row passes through every layer untouched by the
  other: the packed layer is the layer applied to each of the two rows, side by side, and so is the clamp. After the
  seventh layer the packed row has two entries, the results of row `r` and of row `4096 + r`, and they are written
  back to those two rows of the tile. The kernel module proves that the result array so assembled is `G` of the
  kernel's arguments. Nothing in this uses finiteness of the inputs: the precondition is not needed.

  Assembly. Both programs terminate without fault and leave their fifteen argument arrays unchanged (the frame
  claims; for the reference this is the argument part of its run). The idealized kernel is the kernel's own text read
  at the ideal instance, no operation was rewritten, and the statement relating the two is `True`. For the value
  claim take, on each device, the common result to be `G` of the kernel's arguments: the kernel's run ends there, the
  reference's run ends at `G` of its own arguments, and the two argument lists agree by hypothesis.
-/
import proofs.«175643_j62766652064010_2_alg».proof.Defs
import proofs.«175643_j62766652064010_2_alg».proof.Proof.Gen.Kernel
import proofs.«175643_j62766652064010_2_alg».proof.Proof.Gen.Kernel.Skeleton
import proofs.«175643_j62766652064010_2_alg».proof.Proof.Gen.Kernel.Launch
import proofs.«175643_j62766652064010_2_alg».proof.Proof.Gen.Kernel.Points
import proofs.«175643_j62766652064010_2_alg».proof.Proof.Gen.Kernel.Frame
import proofs.«175643_j62766652064010_2_alg».proof.Proof.Gen.KernelIdeal
import proofs.«175643_j62766652064010_2_alg».proof.Proof.Gen.KernelIdeal.Skeleton
import proofs.«175643_j62766652064010_2_alg».proof.Proof.Gen.KernelIdeal.Launch
import proofs.«175643_j62766652064010_2_alg».proof.Proof.Gen.KernelIdeal.Points
import proofs.«175643_j62766652064010_2_alg».proof.Proof.Gen.KernelIdeal.Frame
import proofs.«175643_j62766652064010_2_alg».proof.Proof.Gen.ReferenceIdeal
import proofs.«175643_j62766652064010_2_alg».proof.Proof.Gen.Pre_finite_inputs
import proofs.«175643_j62766652064010_2_alg».proof.Proof.Gen.KernelIdeal.Value
import proofs.«175643_j62766652064010_2_alg».proof.Proof.Gen.ReferenceIdeal.Run
import proofs.«175643_j62766652064010_2_alg».proof.Proof.Gen.ReferenceIdeal.Read
import proofs.«175643_j62766652064010_2_alg».proof.Proof.KernelValue
import proofs.«175643_j62766652064010_2_alg».proof.Proof.RefValue
import Idealize.ShloMosaic.Adequacy
import Idealize.ShloMosaic.Init

noncomputable section

namespace Cert.Proof

open Idealize.ShloMosaic Idealize.SL.Sem Cert.Kernel

namespace Claims

/-- The kernel as printed runs and leaves its arguments unchanged. -/
theorem frame_kernel : Cert.frame_Kernel := fun m ρ _ => Cert.Kernel.Gen.frame m ρ

/-- The kernel read at the ideal instance runs and leaves its arguments unchanged. -/
theorem frame_kernelIdeal : Cert.frame_KernelIdeal := fun m ρ _ => Cert.KernelIdeal.Gen.frame m ρ

/-- The reference runs and leaves its arguments unchanged: the argument part of its run. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the ideal instance, so there is nothing to restate. -/
theorem preserves : Cert.preserves_Kernel_KernelIdeal := trivial

/-- From memories that agree on the fifteen arguments both programs end, on every device, with the network `G` of the
    kernel's arguments as their result: the kernel by its run, the reference because its last stage is `G` of its own
    arguments, which are the kernel's. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2.1,
    (hagree c).2.2.2.2.2.2.2.2.2.2.2.2.2.1,
    (hagree c).2.2.2.2.2.2.2.2.2.2.2.2.2.2]

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
